-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1000000 32) (main_arg2 : FVec F S64x64 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S4000x64 : Shape := ⟨2, ![4000, 64]⟩
abbrev S1100000x64 : Shape := ⟨2, ![1100000, 64]⟩
abbrev S1x64 : Shape := ⟨2, ![1, 64]⟩

abbrev nBuf : Space → Nat
  | .hbm => 102
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S100000, .i32⟩
  | .hbm, ⟨13, _⟩ => ⟨S1100000, .i32⟩
  | .hbm, ⟨14, _⟩ => ⟨S1100000, .i32⟩
  | .hbm, ⟨15, _⟩ => ⟨S_, .f32⟩
  | .hbm, ⟨16, _⟩ => ⟨S1100000, .f32⟩
  | .hbm, ⟨17, _⟩ => ⟨S_, .f32⟩
  | .hbm, ⟨18, _⟩ => ⟨S100000, .f32⟩
  | .hbm, ⟨19, _⟩ => ⟨S1100000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1100000, .i32⟩
  | .hbm, ⟨31, _⟩ => ⟨S1100000, .i1⟩
  | .hbm, ⟨32, _⟩ => ⟨S_, .i32⟩
  | .hbm, ⟨33, _⟩ => ⟨S1100000, .i32⟩
  | .hbm, ⟨34, _⟩ => ⟨S1100000, .i32⟩
  | .hbm, ⟨35, _⟩ => ⟨S1100000, .i32⟩
  | .hbm, ⟨36, _⟩ => ⟨S1100000x1, .i32⟩
  | .hbm, ⟨37, _⟩ => ⟨S1100000, .f32⟩
  | .hbm, ⟨38, _⟩ => ⟨S_, .i32⟩
  | .hbm, ⟨39, _⟩ => ⟨S1100000, .i32⟩
  | .hbm, ⟨40, _⟩ => ⟨S1100000, .i1⟩
  | .hbm, ⟨41, _⟩ => ⟨S_, .i32⟩
  | .hbm, ⟨42, _⟩ => ⟨S1100000, .i32⟩
  | .hbm, ⟨43, _⟩ => ⟨S1100000, .i32⟩
  | .hbm, ⟨44, _⟩ => ⟨S1100000, .i32⟩
  | .hbm, ⟨45, _⟩ => ⟨S1100000x1, .i32⟩
  | .hbm, ⟨46, _⟩ => ⟨S1100000, .f32⟩
  | .hbm, ⟨47, _⟩ => ⟨S1100000, .f32⟩
  | .hbm, ⟨48, _⟩ => ⟨S100000x64, .f32⟩
  | .hbm, ⟨49, _⟩ => ⟨S_, .i32⟩
  | .hbm, ⟨50, _⟩ => ⟨S1100000, .i32⟩
  | .hbm, ⟨51, _⟩ => ⟨S1100000, .i1⟩
  | .hbm, ⟨52, _⟩ => ⟨S_, .i32⟩
  | .hbm, ⟨53, _⟩ => ⟨S1100000, .i32⟩
  | .hbm, ⟨54, _⟩ => ⟨S1100000, .i32⟩
  | .hbm, ⟨55, _⟩ => ⟨S1100000, .i32⟩
  | .hbm, ⟨56, _⟩ => ⟨S1100000x1, .i32⟩
  | .hbm, ⟨57, _⟩ => ⟨S1100000x64, .f32⟩
  | .hbm, ⟨58, _⟩ => ⟨S1100000x1, .f32⟩
  | .hbm, ⟨59, _⟩ => ⟨S1100000x64, .f32⟩
  | .hbm, ⟨60, _⟩ => ⟨S1100000x64, .f32⟩
  | .hbm, ⟨61, _⟩ => ⟨S_, .f32⟩
  | .hbm, ⟨62, _⟩ => ⟨S100000x64, .f32⟩
  | .hbm, ⟨63, _⟩ => ⟨S1100000x1, .i32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S_, .i32⟩
  | .hbm, ⟨68, _⟩ => ⟨S1100000, .i32⟩
  | .hbm, ⟨69, _⟩ => ⟨S1100000, .i1⟩
  | .hbm, ⟨70, _⟩ => ⟨S_, .i32⟩
  | .hbm, ⟨71, _⟩ => ⟨S1100000, .i32⟩
  | .hbm, ⟨72, _⟩ => ⟨S1100000, .i32⟩
  | .hbm, ⟨73, _⟩ => ⟨S1100000, .i32⟩
  | .hbm, ⟨74, _⟩ => ⟨S1100000x1, .i32⟩
  | .hbm, ⟨75, _⟩ => ⟨S1100000x64, .f32⟩
  | .hbm, ⟨76, _⟩ => ⟨S1100000x1, .f32⟩
  | .hbm, ⟨77, _⟩ => ⟨S1100000x64, .f32⟩
  | .hbm, ⟨78, _⟩ => ⟨S1100000x64, .f32⟩
  | .hbm, ⟨79, _⟩ => ⟨S_, .f32⟩
  | .hbm, ⟨80, _⟩ => ⟨S100000x64, .f32⟩
  | .hbm, ⟨81, _⟩ => ⟨S1100000x1, .i32⟩
  | .hbm, ⟨82, _⟩ => ⟨S100000x64, .f32⟩
  | .hbm, ⟨83, _⟩ => ⟨S100000x64, .f32⟩
  | .hbm, ⟨84, _⟩ => ⟨S100000x64, .f32⟩
  | .hbm, ⟨85, _⟩ => ⟨S_, .i32⟩
  | .hbm, ⟨86, _⟩ => ⟨S1100000, .i32⟩
  | .hbm, ⟨87, _⟩ => ⟨S1100000, .i1⟩
  | .hbm, ⟨88, _⟩ => ⟨S_, .i32⟩
  | .hbm, ⟨89, _⟩ => ⟨S1100000, .i32⟩
  | .hbm, ⟨90, _⟩ => ⟨S1100000, .i32⟩
  | .hbm, ⟨91, _⟩ => ⟨S1100000, .i32⟩
  | .hbm, ⟨92, _⟩ => ⟨S1100000x1, .i32⟩
  | .hbm, ⟨93, _⟩ => ⟨S1100000x64, .f32⟩
  | .hbm, ⟨94, _⟩ => ⟨S1100000x1, .f32⟩
  | .hbm, ⟨95, _⟩ => ⟨S1100000x64, .f32⟩
  | .hbm, ⟨96, _⟩ => ⟨S1100000x64, .f32⟩
  | .hbm, ⟨97, _⟩ => ⟨S_, .f32⟩
  | .hbm, ⟨98, _⟩ => ⟨S100000x64, .f32⟩
  | .hbm, ⟨99, _⟩ => ⟨S1100000x1, .i32⟩
  | .hbm, ⟨100, _⟩ => ⟨S100000x64, .f32⟩
  | .hbm, ⟨101, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S64x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S64x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S64, .f32⟩
  | .local _ .vmem, ⟨18, _⟩ => ⟨S4000x64, .f32⟩
  | .local _ .vmem, ⟨19, _⟩ => ⟨S4000x64, .f32⟩
  | .local _ .vmem, ⟨20, _⟩ => ⟨S4000x64, .f32⟩
  | .local _ .vmem, ⟨21, _⟩ => ⟨S4000x64, .f32⟩
  | .local _ .vmem, ⟨22, _⟩ => ⟨S64x64, .f32⟩
  | .local _ .vmem, ⟨23, _⟩ => ⟨S4000x64, .f32⟩
  | .local _ .vmem, ⟨24, _⟩ => ⟨S4000x64, .f32⟩
  | .local _ .vmem, ⟨25, _⟩ => ⟨S4000x64, .f32⟩
  | .local _ .vmem, ⟨26, _⟩ => ⟨S4000x64, .f32⟩
  | .local _ .vmem, ⟨27, _⟩ => ⟨S64, .f32⟩
  | .local _ .vmem, ⟨28, _⟩ => ⟨S4000x64, .f32⟩
  | .local _ .vmem, ⟨29, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S4000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  inb_S64_S64_0 : ∀ a, (![0] : Fin 1 → Nat) a + S64.size a ≤ S64.size a
  h_S64 : 0 < S64.numel
  shapeCasts_S64_S1x64 : S64.ShapeCasts S1x64
  shapeCasts_S4000x64_S4000x64 : S4000x64.ShapeCasts S4000x64
  broadcasts_S1x64_S4000x64 : S1x64.Broadcasts S4000x64
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S4000x64_S64x64_S4000x64_1_0_0_1_n_n_wf : DotDims.WF S4000x64 S64x64 S4000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S100000x64.size a
  hwx3_2 : ∀ i : grid3.Coords, EltTy.bits .f32 = 32 ∨ (Rect.block (s := S100000x64) S4000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S100000x64.size a
  hwx4_0 : ∀ i : grid4.Coords, EltTy.bits .f32 = 32 ∨ (Rect.block (s := S100000x64) S4000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x64.size a ≤ S100000x64.size a
  hwx4_2 : ∀ i : grid4.Coords, EltTy.bits .f32 = 32 ∨ (Rect.block (s := S100000x64) S4000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x64.size a ≤ S100000x64.size a
  hwx5_0 : ∀ i : grid5.Coords, EltTy.bits .f32 = 32 ∨ (Rect.block (s := S100000x64) S4000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64.size a ≤ S64.size a
  hwx5_1 : ∀ i : grid5.Coords, EltTy.bits .f32 = 32 ∨ (Rect.block (s := S64) S64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x64.size a ≤ S100000x64.size a
  hwx5_2 : ∀ i : grid5.Coords, EltTy.bits .f32 = 32 ∨ (Rect.block (s := S100000x64) S4000x64.size (cc5_transform_2 i) (hinb5_2 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S4000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S4000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S4000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v59) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S4000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S4000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S4000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S1x64 : Shape := ⟨2, ![1, 64]⟩

abbrev nBuf : Space → Nat
  | .hbm => 117
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x1000000, .i32⟩
  | .hbm, ⟨10, _⟩ => ⟨S1000000, .i32⟩
  | .hbm, ⟨11, _⟩ => ⟨S1100000, .i32⟩
  | .hbm, ⟨12, _⟩ => ⟨S1x1000000, .i32⟩
  | .hbm, ⟨13, _⟩ => ⟨S1000000, .i32⟩
  | .hbm, ⟨14, _⟩ => ⟨S1100000, .i32⟩
  | .hbm, ⟨15, _⟩ => ⟨S_, .f32⟩
  | .hbm, ⟨16, _⟩ => ⟨S1100000, .f32⟩
  | .hbm, ⟨17, _⟩ => ⟨S_, .f32⟩
  | .hbm, ⟨18, _⟩ => ⟨S100000, .f32⟩
  | .hbm, ⟨19, _⟩ => ⟨S1100000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1100000, .i32⟩
  | .hbm, ⟨31, _⟩ => ⟨S1100000, .i1⟩
  | .hbm, ⟨32, _⟩ => ⟨S_, .i32⟩
  | .hbm, ⟨33, _⟩ => ⟨S1100000, .i32⟩
  | .hbm, ⟨34, _⟩ => ⟨S1100000, .i32⟩
  | .hbm, ⟨35, _⟩ => ⟨S1100000, .i32⟩
  | .hbm, ⟨36, _⟩ => ⟨S1100000x1, .i32⟩
  | .hbm, ⟨37, _⟩ => ⟨S1100000, .f32⟩
  | .hbm, ⟨38, _⟩ => ⟨S_, .i32⟩
  | .hbm, ⟨39, _⟩ => ⟨S1100000, .i32⟩
  | .hbm, ⟨40, _⟩ => ⟨S1100000, .i1⟩
  | .hbm, ⟨41, _⟩ => ⟨S_, .i32⟩
  | .hbm, ⟨42, _⟩ => ⟨S1100000, .i32⟩
  | .hbm, ⟨43, _⟩ => ⟨S1100000, .i32⟩
  | .hbm, ⟨44, _⟩ => ⟨S1100000, .i32⟩
  | .hbm, ⟨45, _⟩ => ⟨S1100000x1, .i32⟩
  | .hbm, ⟨46, _⟩ => ⟨S1100000, .f32⟩
  | .hbm, ⟨47, _⟩ => ⟨S1100000, .f32⟩
  | .hbm, ⟨48, _⟩ => ⟨S100000x64, .f32⟩
  | .hbm, ⟨49, _⟩ => ⟨S_, .i32⟩
  | .hbm, ⟨50, _⟩ => ⟨S1100000, .i32⟩
  | .hbm, ⟨51, _⟩ => ⟨S1100000, .i1⟩
  | .hbm, ⟨52, _⟩ => ⟨S_, .i32⟩
  | .hbm, ⟨53, _⟩ => ⟨S1100000, .i32⟩
  | .hbm, ⟨54, _⟩ => ⟨S1100000, .i32⟩
  | .hbm, ⟨55, _⟩ => ⟨S1100000, .i32⟩
  | .hbm, ⟨56, _⟩ => ⟨S1100000x1, .i32⟩
  | .hbm, ⟨57, _⟩ => ⟨S1100000x64, .f32⟩
  | .hbm, ⟨58, _⟩ => ⟨S1100000x1, .f32⟩
  | .hbm, ⟨59, _⟩ => ⟨S1100000x64, .f32⟩
  | .hbm, ⟨60, _⟩ => ⟨S1100000x64, .f32⟩
  | .hbm, ⟨61, _⟩ => ⟨S_, .f32⟩
  | .hbm, ⟨62, _⟩ => ⟨S100000x64, .f32⟩
  | .hbm, ⟨63, _⟩ => ⟨S1100000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S_, .i32⟩
  | .hbm, ⟨73, _⟩ => ⟨S1100000, .i32⟩
  | .hbm, ⟨74, _⟩ => ⟨S1100000, .i1⟩
  | .hbm, ⟨75, _⟩ => ⟨S_, .i32⟩
  | .hbm, ⟨76, _⟩ => ⟨S1100000, .i32⟩
  | .hbm, ⟨77, _⟩ => ⟨S1100000, .i32⟩
  | .hbm, ⟨78, _⟩ => ⟨S1100000, .i32⟩
  | .hbm, ⟨79, _⟩ => ⟨S1100000x1, .i32⟩
  | .hbm, ⟨80, _⟩ => ⟨S1100000x64, .f32⟩
  | .hbm, ⟨81, _⟩ => ⟨S1100000x1, .f32⟩
  | .hbm, ⟨82, _⟩ => ⟨S1100000x64, .f32⟩
  | .hbm, ⟨83, _⟩ => ⟨S1100000x64, .f32⟩
  | .hbm, ⟨84, _⟩ => ⟨S_, .f32⟩
  | .hbm, ⟨85, _⟩ => ⟨S100000x64, .f32⟩
  | .hbm, ⟨86, _⟩ => ⟨S1100000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000x64, .f32⟩
  | .hbm, ⟨93, _⟩ => ⟨S100000x64, .f32⟩
  | .hbm, ⟨94, _⟩ => ⟨S100000x64, .f32⟩
  | .hbm, ⟨95, _⟩ => ⟨S_, .i32⟩
  | .hbm, ⟨96, _⟩ => ⟨S1100000, .i32⟩
  | .hbm, ⟨97, _⟩ => ⟨S1100000, .i1⟩
  | .hbm, ⟨98, _⟩ => ⟨S_, .i32⟩
  | .hbm, ⟨99, _⟩ => ⟨S1100000, .i32⟩
  | .hbm, ⟨100, _⟩ => ⟨S1100000, .i32⟩
  | .hbm, ⟨101, _⟩ => ⟨S1100000, .i32⟩
  | .hbm, ⟨102, _⟩ => ⟨S1100000x1, .i32⟩
  | .hbm, ⟨103, _⟩ => ⟨S1100000x64, .f32⟩
  | .hbm, ⟨104, _⟩ => ⟨S1100000x1, .f32⟩
  | .hbm, ⟨105, _⟩ => ⟨S1100000x64, .f32⟩
  | .hbm, ⟨106, _⟩ => ⟨S1100000x64, .f32⟩
  | .hbm, ⟨107, _⟩ => ⟨S_, .f32⟩
  | .hbm, ⟨108, _⟩ => ⟨S100000x64, .f32⟩
  | .hbm, ⟨109, _⟩ => ⟨S1100000x1, .i32⟩
  | .hbm, ⟨110, _⟩ => ⟨S100000x64, .f32⟩
  | .hbm, ⟨111, _⟩ => ⟨S1x64, .f32⟩
  | .hbm, ⟨112, _⟩ => ⟨S100000x64, .f32⟩
  | .hbm, ⟨113, _⟩ => ⟨S100000x64, .f32⟩
  | .hbm, ⟨114, _⟩ => ⟨S_, .f32⟩
  | .hbm, ⟨115, _⟩ => ⟨S100000x64, .f32⟩
  | .hbm, ⟨116, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_call3_cst : Ref sig .tc := ⟨.hbm, 114, rfl⟩
abbrev main_call3_v0 : Ref sig .tc := ⟨.hbm, 115, rfl⟩
abbrev main_v83 : Ref sig .tc := ⟨.hbm, 116, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x64_S64x64_S100000x64_1_0_0_1_n_n_wf : DotDims.WF S100000x64 S64x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf

class Facts : Prop extends Facts₀ where

variable [Facts]
-- ==== Proof.Spec.lean ====
/-
  The three-layer graph convolution both programs compute, as ONE function of the eight argument arrays.

  The edge list `ei` (2 × 1 000 000 node numbers) is extended by one self loop per node: `edgeSrc` / `edgeDst` are its two
  rows, each followed by 0, 1, …, 99 999. An index column (`wrapCol`) adds the number of nodes to a negative entry, as
  gather and scatter do. The in-degree of a node is the number of extended edges that end there (a scatter-add of
  ones), `degInv` its inverse square root where positive and 0 elsewhere, and an edge's weight (`edgeNorm`) the product
  of `degInv` at its two ends. One layer (`layer`) multiplies the node features by a 64 × 64 matrix, gathers the rows
  at the edges' sources, scales each by its edge's weight, adds them up at the edges' targets (`aggregate`), adds
  the bias row and clamps below at 0 (`biasRelu`). `gcn` is three layers, the graph's columns and weights shared.
-/
import proofs.«132859_j61203283968721_1_alg».proof.Proof.Gen.ReferenceIdeal

noncomputable section

namespace Cert.Gcn

open Idealize.ShloMosaic Cert.ReferenceIdeal Cert.ReferenceIdeal.Gen

variable {F : FTy → Type} [FloatOps F]

abbrev Edges (F : FTy → Type) := (⟨S2x1000000, .i32⟩ : BufTy).Contents (Elt F)
abbrev EdgeIdx (F : FTy → Type) := (⟨S1100000, .i32⟩ : BufTy).Contents (Elt F)
abbrev EdgeCol (F : FTy → Type) := (⟨S1100000x1, .i32⟩ : BufTy).Contents (Elt F)
abbrev EdgeWt (F : FTy → Type) := (⟨S1100000, .f32⟩ : BufTy).Contents (Elt F)
abbrev NodeVal (F : FTy → Type) := (⟨S100000, .f32⟩ : BufTy).Contents (Elt F)
abbrev Feat (F : FTy → Type) := (⟨S100000x64, .f32⟩ : BufTy).Contents (Elt F)
abbrev Weight (F : FTy → Type) := (⟨S64x64, .f32⟩ : BufTy).Contents (Elt F)
abbrev Bias (F : FTy → Type) := (⟨S64, .f32⟩ : BufTy).Contents (Elt F)

/-- Row `0` of the edge list (the sources), then one self loop per node. -/
def edgeSrc (ei : Edges F) : EdgeIdx F :=
  concatenate S1100000 0 [⟨S1000000, shapeCast S1000000 (extractStridedSlice S1x1000000 ![0, 0] ei slices_S2x1000000_S1x1000000_0_0) shapeCasts_S1x1000000_S1000000⟩,
    ⟨S100000, iotaInDim S100000 32 0⟩] concatenates_S1000000_S100000_S1100000_d0

/-- Row `1` of the edge list (the targets), then one self loop per node. -/
def edgeDst (ei : Edges F) : EdgeIdx F :=
  concatenate S1100000 0 [⟨S1000000, shapeCast S1000000 (extractStridedSlice S1x1000000 ![1, 0] ei slices_S2x1000000_S1x1000000_1_0) shapeCasts_S1x1000000_S1000000⟩,
    ⟨S100000, iotaInDim S100000 32 0⟩] concatenates_S1000000_S100000_S1100000_d0

/-- Node numbers as an index column, a negative one counted from the end. -/
def wrapCol (idx : EdgeIdx F) : EdgeCol F :=
  broadcastInDim S1100000x1 ![0] bcast_S1100000_S1100000x1_0
    (select (cmpi .slt idx (broadcastInDim S1100000 ![] bcast_S_S1100000 (constantI S_ 32 0#32)))
      (addi idx (broadcastInDim S1100000 ![] bcast_S_S1100000 (constantI S_ 32 100000#32))) idx)

/-- The number of extended edges ending at each node. -/
def degree (dst : EdgeIdx F) : NodeVal F :=
  Host.scatterAdd scatter_S100000_S1100000x1_S1100000_n_0_0_1
    (broadcastInDim S100000 ![] bcast_S_S100000 (constant S_ .f32 0x00000000#32))
    (broadcastInDim S1100000x1 ![0] bcast_S1100000_S1100000x1_0 dst)
    (broadcastInDim S1100000 ![] bcast_S_S1100000 (constant S_ .f32 0x3F800000#32))

/-- The inverse square root of the degree where it is positive, `0` elsewhere. -/
def degInv (dst : EdgeIdx F) : NodeVal F :=
  select (cmpf .ogt (degree dst) (broadcastInDim S100000 ![] bcast_S_S100000 (constant S_ .f32 0x00000000#32)))
    (Host.rsqrt (degree dst))
    (broadcastInDim S100000 ![] bcast_S_S100000 (id (constant S_ .f32 0x00000000#32)))

/-- An edge's weight: the product of `degInv` at its source and at its target. -/
def edgeNorm (src dst : EdgeIdx F) : EdgeWt F :=
  mulf (Host.gather gather_S100000_S1100000x1_S1100000_n_0_n_n_0_1_1 (degInv dst) (wrapCol src))
    (Host.gather gather_S100000_S1100000x1_S1100000_n_0_n_n_0_1_1 (degInv dst) (wrapCol dst))

/-- Each node's row: the sum, over the edges ending there, of the source's row of `h` times the edge's weight. -/
def aggregate (src dst : EdgeIdx F) (norm : EdgeWt F) (h : Feat F) : Feat F :=
  Host.scatterAdd scatter_S100000x64_S1100000x1_S1100000x64_1_0_0_1
    (broadcastInDim S100000x64 ![] bcast_S_S100000x64 (constant S_ .f32 0x00000000#32))
    (broadcastInDim S1100000x1 ![0] bcast_S1100000_S1100000x1_0 dst)
    (mulf (Host.gather gather_S100000x64_S1100000x1_S1100000x64_1_0_n_n_0_1_164 h (wrapCol src))
      (broadcastInDim S1100000x64 ![0, 1] bcast_S1100000x1_S1100000x64_0_1
        (broadcastInDim S1100000x1 ![0] bcast_S1100000_S1100000x1_0 norm)))

/-- Add the bias row to every node's row, then clamp below at `0`. -/
def biasRelu (a : Feat F) (b : Bias F) : Feat F :=
  maximumf (addf a (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The node features times the layer's matrix. -/
def project (h : Feat F) (W : Weight F) : Feat F :=
  Host.dotGeneral dot_S100000x64_S64x64_S100000x64_1_0_0_1_n_n none h W

/-- One graph-convolution layer. -/
def layer (src dst : EdgeIdx F) (norm : EdgeWt F) (h : Feat F) (W : Weight F) (b : Bias F) : Feat F :=
  biasRelu (aggregate src dst norm (project h W)) b

/-- Three layers over one graph. -/
def gcn (x : Feat F) (ei : Edges F) (W0 : Weight F) (b0 : Bias F) (W1 : Weight F) (b1 : Bias F) (W2 : Weight F) (b2 : Bias F) : Feat F :=
  layer (edgeSrc ei) (edgeDst ei) (edgeNorm (edgeSrc ei) (edgeDst ei))
    (layer (edgeSrc ei) (edgeDst ei) (edgeNorm (edgeSrc ei) (edgeDst ei))
      (layer (edgeSrc ei) (edgeDst ei) (edgeNorm (edgeSrc ei) (edgeDst ei)) x W0 b0) W1 b1) W2 b2

end Cert.Gcn

end
-- ==== Proof.KernelRun.lean ====
/-
  The idealized kernel's run with its result named. Every weakly fair execution of @main terminates, nothing
  faulting, with the argument arrays as launched, and with the result array `main_v74` holding what the last
  boundary's contents `W12` hold there: the contents after the sixth region's write-backs, folded from the launch
  memory through the six host stretches and the six regions. What that array is, as a function of the arguments, is
  read off the fold in the value modules.
-/
import proofs.«132859_j61203283968721_1_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run over the twelve segments, read against the final state at the result buffer and at each argument. -/
theorem run_named : θ_run defs (onTc (τ := τ) (main (F := F))) ⟨m, fun _ => 0, ρ⟩ (fun r => ∀ c : Dev nD,
      r.2.mem ((c.tc : Thread nD τ).loc main_v74) = W12 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v74 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.GcnRun

end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.RegionMatmul.lean ====
/-
  The three matrix-product regions of the kernel, each as one statement about a whole array.

  A region walks 25 grid points; point t stages rows 4000·t … 4000·t + 3999 of the [100000, 64] operand and the
  whole [64, 64] matrix, multiplies the two into a zero accumulator, and writes the 4000 × 64 product back as rows
  4000·t … 4000·t + 3999 of the result. At the extended reals the narrowing of the operands is the identity, so row
  p of the tile's product is row 4000·t + p of the whole product (the row-tile bridge), and since every row r of
  the result lies in the block of point r / 4000, the array the region leaves is the whole product.
-/
import proofs.«132859_j61203283968721_1_alg».proof.Proof.Gen.KernelIdeal.Frame
import proofs.«132859_j61203283968721_1_alg».proof.Proof.Spec
import proofs.«132859_j61203283968721_1_alg».proof.Proof.LibTileMatmul
import Idealize.ShloMosaic.Lib.Pipeline.Value
import Idealize.ShloMosaic.Lib.ValueIdx

set_option maxRecDepth 16384

noncomputable section

namespace Cert.KernelIdeal.GcnRegions

open Idealize.ShloMosaic Idealize.ShloMosaic.TcCoe Idealize.SL.Sem Cert.KernelIdeal Cert.KernelIdeal.Gen
open Idealize.ShloMosaic.Pipeline (Dat)
open Idealize.ShloMosaic.ValueIdx Idealize.ShloMosaic.TileMatmul

/-- The zero offset of a whole-buffer access, as the constant function. -/
theorem hz : (![0, 0] : Fin 2 → Nat) = fun _ => 0 := funext fun a => by fin_cases a <;> rfl

/-! ## Region 0 -/

/-- The tile's product at (p, q), when row p of the tile is row i of X and the staged matrix is W: the whole
    product at (i, q). The narrowing of both operands is the identity at the extended reals. -/
theorem pay0_apply (x0 : Vec Ideal S4000x64 .f32) (x1 : Vec Ideal S64x64 .f32)
    (X : Cert.Gcn.Feat Ideal) (W : Cert.Gcn.Weight Ideal) (p : Fin 4000) (q : Fin 64) (i : Fin 100000)
    (hT : ∀ k : Fin 64, x0 (ix2 p k) = X (ix2 i k)) (hB : ∀ k : Fin 64, x1 (ix2 k q) = W (ix2 k q)) :
    k0_pay1 x0 x1 (ix2 p q) = Cert.Gcn.project X W (ix2 i q) := by
  unfold k0_pay1 Cert.Gcn.project
  exact matmul_tile_eq_dotGeneral dot_S4000x64_S64x64_S4000x64_1_0_0_1_n_n_wf
    Cert.ReferenceIdeal.dot_S100000x64_S64x64_S100000x64_1_0_0_1_n_n.wf none none _ _ X W p q i hT hB

/-- The index maps over the grid: the operand's and the result's blocks are block t of the rows, the matrix's
    block is the whole matrix. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the operand array and the matrix as the region
    finds them: entry (p, q) of the tile's product is entry (4000·t + p, q) of the whole product. -/
theorem flushed0_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (Cert.Gcn.project (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S4000x64) hz, View.ld_unit_zero (S := S64x64) hz]
  obtain ⟨e0, e1, e2, e3, e4, e5⟩ := idx_facts0 t
  have ht : t.val < 25 := lt_of_lt_of_eq t.isLt N_0
  funext j
  obtain ⟨p, q, rfl⟩ : ∃ (p : Fin 4000) (q : Fin 64), j = ix2 p q := ⟨j 0, j 1, eq_ix2 j⟩
  have hrow : 4000 * t.val + p.val < 100000 := by have := p.isLt; omega
  show k0_pay1 (iblk0 V c 0 t) (iblk0 V c 1 t) (ix2 p q)
    = Cert.Gcn.project (F := Ideal) (V c main_arg0) (V c main_arg2) (((cfg0.win 2).blk t).view.emb (ix2 p q))
  have hemb : ((cfg0.win 2).blk t).view.emb (ix2 p q) = ix2 (⟨4000 * t.val + p.val, hrow⟩ : Fin 100000) q := by
    funext a; apply Fin.ext
    match a with
    | ⟨0, _⟩ => show win0_2.index t (0 : Fin 2) * 4000 + 1 * p.val = 4000 * t.val + p.val; omega
    | ⟨1, _⟩ => show win0_2.index t (1 : Fin 2) * 64 + 1 * q.val = q.val; omega
  rw [hemb]
  refine pay0_apply (iblk0 V c 0 t) (iblk0 V c 1 t) (V c main_arg0) (V c main_arg2) p q ⟨4000 * t.val + p.val, hrow⟩ (fun k => ?_) (fun k => ?_)
  · show V c main_arg0 (((cfg0.win 0).blk t).view.emb (ix2 p k)) = V c main_arg0 (ix2 (⟨4000 * t.val + p.val, hrow⟩ : Fin 100000) k)
    refine congrArg _ ?_
    funext a; apply Fin.ext
    match a with
    | ⟨0, _⟩ => show win0_0.index t (0 : Fin 2) * 4000 + 1 * p.val = 4000 * t.val + p.val; omega
    | ⟨1, _⟩ => show win0_0.index t (1 : Fin 2) * 64 + 1 * k.val = k.val; omega
  · show V c main_arg2 (((cfg0.win 1).blk t).view.emb (ix2 k q)) = V c main_arg2 (ix2 k q)
    refine congrArg _ ?_
    funext a; apply Fin.ext
    match a with
    | ⟨0, _⟩ => show win0_1.index t (0 : Fin 2) * 64 + 1 * k.val = k.val; omega
    | ⟨1, _⟩ => show win0_1.index t (1 : Fin 2) * 64 + 1 * q.val = q.val; omega

/-- An index of the result array is in point t's block iff each coordinate is in the block's range on its axis. -/
theorem mem_blk0 (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v30).slice (win0_2.rect t)).set ↔ _
  rw [View.set_slice_whole, Rect.mem_set_unit]
  exact Iff.rfl

/-- Every index of the result array is written back by some point: row r by point r / 4000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : (i 0).val / 4000 < cfg0.N := lt_of_lt_of_eq (by omega) N_0.symm
  obtain ⟨t, ht⟩ : ∃ t : Fin cfg0.N, t.val = (i 0).val / 4000 := ⟨⟨_, hN⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 64 ≤ (i 1).val ∧ (i 1).val < win0_2.index t (1 : Fin 2) * 64 + 64; omega

/-- The array region 0 leaves: the node features times the first layer's matrix. -/
theorem matmul0_array (V : (c : Dev nD) → (b : Ref sig .tc) → Buf (Elt Ideal) ((c : Thread nD τ).loc b)) (c : Dev nD) :
    (dat0 (F := Ideal) V c).arrAt 2 cfg0.N = Cert.Gcn.project (F := Ideal) (V c main_arg0) (V c main_arg2) :=
  (dat0 (F := Ideal) V c).arrAt_eq_of_cover 2 _ (fun t _ => flushed0_eq V c t) cover0

/-! ## Region 2 -/

/-- The tile's product at (p, q), when row p of the tile is row i of X and the staged matrix is W: the whole
    product at (i, q). The reshape of the tile to its own shape and the narrowing of both operands are identities
    at the extended reals. -/
theorem pay2_apply (x0 : Vec Ideal S4000x64 .f32) (x1 : Vec Ideal S64x64 .f32)
    (X : Cert.Gcn.Feat Ideal) (W : Cert.Gcn.Weight Ideal) (p : Fin 4000) (q : Fin 64) (i : Fin 100000)
    (hT : ∀ k : Fin 64, x0 (ix2 p k) = X (ix2 i k)) (hB : ∀ k : Fin 64, x1 (ix2 k q) = W (ix2 k q)) :
    k2_pay1 x0 x1 (ix2 p q) = Cert.Gcn.project X W (ix2 i q) := by
  unfold k2_pay1 Cert.Gcn.project
  exact matmul_tile_eq_dotGeneral dot_S4000x64_S64x64_S4000x64_1_0_0_1_n_n_wf
    Cert.ReferenceIdeal.dot_S100000x64_S64x64_S100000x64_1_0_0_1_n_n.wf none none _ _ X W p q i (fun k => by rw [shapeCast_self]; exact hT k) hB

/-- The index maps over the grid: the operand's and the result's blocks are block t of the rows, the matrix's
    block is the whole matrix. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product of the operand array and the matrix as the region
    finds them: entry (p, q) of the tile's product is entry (4000·t + p, q) of the whole product. -/
theorem flushed2_eq (V : (c : Dev nD) → (b : Ref sig .tc) → Buf (Elt Ideal) ((c : Thread nD τ).loc b)) (c : Dev nD) (t : Fin cfg2.N) :
    (dat2 (F := Ideal) V c).flushed 2 t
      = ((cfg2.win 2).blk t).view.read (Elt Ideal) (Cert.Gcn.project (F := Ideal) (V c main_v44) (V c main_arg4)) := by
  show (cfg2.win 2).cut (grid2.coords t) ((dat2 V c).after 2 t) = _
  rw [after2_2]
  unfold out2_2
  rw [View.canon_unit_zero hz]
  simp only [View.ld_unit_zero (S := S4000x64) hz, View.ld_unit_zero (S := S64x64) hz]
  obtain ⟨e0, e1, e2, e3, e4, e5⟩ := idx_facts2 t
  have ht : t.val < 25 := lt_of_lt_of_eq t.isLt N_2
  funext j
  obtain ⟨p, q, rfl⟩ : ∃ (p : Fin 4000) (q : Fin 64), j = ix2 p q := ⟨j 0, j 1, eq_ix2 j⟩
  have hrow : 4000 * t.val + p.val < 100000 := by have := p.isLt; omega
  show k2_pay1 (iblk2 V c 0 t) (iblk2 V c 1 t) (ix2 p q)
    = Cert.Gcn.project (F := Ideal) (V c main_v44) (V c main_arg4) (((cfg2.win 2).blk t).view.emb (ix2 p q))
  have hemb : ((cfg2.win 2).blk t).view.emb (ix2 p q) = ix2 (⟨4000 * t.val + p.val, hrow⟩ : Fin 100000) q := by
    funext a; apply Fin.ext
    match a with
    | ⟨0, _⟩ => show win2_2.index t (0 : Fin 2) * 4000 + 1 * p.val = 4000 * t.val + p.val; omega
    | ⟨1, _⟩ => show win2_2.index t (1 : Fin 2) * 64 + 1 * q.val = q.val; omega
  rw [hemb]
  refine pay2_apply (iblk2 V c 0 t) (iblk2 V c 1 t) (V c main_v44) (V c main_arg4) p q ⟨4000 * t.val + p.val, hrow⟩ (fun k => ?_) (fun k => ?_)
  · show V c main_v44 (((cfg2.win 0).blk t).view.emb (ix2 p k)) = V c main_v44 (ix2 (⟨4000 * t.val + p.val, hrow⟩ : Fin 100000) k)
    refine congrArg _ ?_
    funext a; apply Fin.ext
    match a with
    | ⟨0, _⟩ => show win2_0.index t (0 : Fin 2) * 4000 + 1 * p.val = 4000 * t.val + p.val; omega
    | ⟨1, _⟩ => show win2_0.index t (1 : Fin 2) * 64 + 1 * k.val = k.val; omega
  · show V c main_arg4 (((cfg2.win 1).blk t).view.emb (ix2 k q)) = V c main_arg4 (ix2 k q)
    refine congrArg _ ?_
    funext a; apply Fin.ext
    match a with
    | ⟨0, _⟩ => show win2_1.index t (0 : Fin 2) * 64 + 1 * k.val = k.val; omega
    | ⟨1, _⟩ => show win2_1.index t (1 : Fin 2) * 64 + 1 * q.val = q.val; omega

/-- An index of the result array is in point t's block iff each coordinate is in the block's range on its axis. -/
theorem mem_blk2 (t : Fin cfg2.N) (i : S100000x64.Idx) :
    i ∈ ((cfg2.win 2).blk t).view.set ↔ ∀ a : Fin 2, win2_2.index t a * S4000x64.size a ≤ (i a).val ∧ (i a).val < win2_2.index t a * S4000x64.size a + S4000x64.size a := by
  show i ∈ ((View.whole main_v45).slice (win2_2.rect t)).set ↔ _
  rw [View.set_slice_whole, Rect.mem_set_unit]
  exact Iff.rfl

/-- Every index of the result array is written back by some point: row r by point r / 4000. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : (i 0).val / 4000 < cfg2.N := lt_of_lt_of_eq (by omega) N_2.symm
  obtain ⟨t, ht⟩ : ∃ t : Fin cfg2.N, t.val = (i 0).val / 4000 := ⟨⟨_, hN⟩, rfl⟩
  obtain ⟨-, -, -, -, e4, e5⟩ := idx_facts2 t
  refine ⟨t, flush2_2 t, ?_⟩
  rw [mem_blk2]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 64 ≤ (i 1).val ∧ (i 1).val < win2_2.index t (1 : Fin 2) * 64 + 64; omega

/-- The array region 2 leaves: the first layer's output times the second layer's matrix. -/
theorem matmul2_array (V : (c : Dev nD) → (b : Ref sig .tc) → Buf (Elt Ideal) ((c : Thread nD τ).loc b)) (c : Dev nD) :
    (dat2 (F := Ideal) V c).arrAt 2 cfg2.N = Cert.Gcn.project (F := Ideal) (V c main_v44) (V c main_arg4) :=
  (dat2 (F := Ideal) V c).arrAt_eq_of_cover 2 _ (fun t _ => flushed2_eq V c t) cover2

/-! ## Region 4 -/

/-- The tile's product at (p, q), when row p of the tile is row i of X and the staged matrix is W: the whole
    product at (i, q). The reshape of the tile to its own shape and the narrowing of both operands are identities
    at the extended reals. -/
theorem pay4_apply (x0 : Vec Ideal S4000x64 .f32) (x1 : Vec Ideal S64x64 .f32)
    (X : Cert.Gcn.Feat Ideal) (W : Cert.Gcn.Weight Ideal) (p : Fin 4000) (q : Fin 64) (i : Fin 100000)
    (hT : ∀ k : Fin 64, x0 (ix2 p k) = X (ix2 i k)) (hB : ∀ k : Fin 64, x1 (ix2 k q) = W (ix2 k q)) :
    k4_pay1 x0 x1 (ix2 p q) = Cert.Gcn.project X W (ix2 i q) := by
  unfold k4_pay1 Cert.Gcn.project
  exact matmul_tile_eq_dotGeneral dot_S4000x64_S64x64_S4000x64_1_0_0_1_n_n_wf
    Cert.ReferenceIdeal.dot_S100000x64_S64x64_S100000x64_1_0_0_1_n_n.wf none none _ _ X W p q i (fun k => by rw [shapeCast_self]; exact hT k) hB

/-- The index maps over the grid: the operand's and the result's blocks are block t of the rows, the matrix's
    block is the whole matrix. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the whole product of the operand array and the matrix as the region
    finds them: entry (p, q) of the tile's product is entry (4000·t + p, q) of the whole product. -/
theorem flushed4_eq (V : (c : Dev nD) → (b : Ref sig .tc) → Buf (Elt Ideal) ((c : Thread nD τ).loc b)) (c : Dev nD) (t : Fin cfg4.N) :
    (dat4 (F := Ideal) V c).flushed 2 t
      = ((cfg4.win 2).blk t).view.read (Elt Ideal) (Cert.Gcn.project (F := Ideal) (V c main_v59) (V c main_arg6)) := by
  show (cfg4.win 2).cut (grid4.coords t) ((dat4 V c).after 2 t) = _
  rw [after4_2]
  unfold out4_2
  rw [View.canon_unit_zero hz]
  simp only [View.ld_unit_zero (S := S4000x64) hz, View.ld_unit_zero (S := S64x64) hz]
  obtain ⟨e0, e1, e2, e3, e4, e5⟩ := idx_facts4 t
  have ht : t.val < 25 := lt_of_lt_of_eq t.isLt N_4
  funext j
  obtain ⟨p, q, rfl⟩ : ∃ (p : Fin 4000) (q : Fin 64), j = ix2 p q := ⟨j 0, j 1, eq_ix2 j⟩
  have hrow : 4000 * t.val + p.val < 100000 := by have := p.isLt; omega
  show k4_pay1 (iblk4 V c 0 t) (iblk4 V c 1 t) (ix2 p q)
    = Cert.Gcn.project (F := Ideal) (V c main_v59) (V c main_arg6) (((cfg4.win 2).blk t).view.emb (ix2 p q))
  have hemb : ((cfg4.win 2).blk t).view.emb (ix2 p q) = ix2 (⟨4000 * t.val + p.val, hrow⟩ : Fin 100000) q := by
    funext a; apply Fin.ext
    match a with
    | ⟨0, _⟩ => show win4_2.index t (0 : Fin 2) * 4000 + 1 * p.val = 4000 * t.val + p.val; omega
    | ⟨1, _⟩ => show win4_2.index t (1 : Fin 2) * 64 + 1 * q.val = q.val; omega
  rw [hemb]
  refine pay4_apply (iblk4 V c 0 t) (iblk4 V c 1 t) (V c main_v59) (V c main_arg6) p q ⟨4000 * t.val + p.val, hrow⟩ (fun k => ?_) (fun k => ?_)
  · show V c main_v59 (((cfg4.win 0).blk t).view.emb (ix2 p k)) = V c main_v59 (ix2 (⟨4000 * t.val + p.val, hrow⟩ : Fin 100000) k)
    refine congrArg _ ?_
    funext a; apply Fin.ext
    match a with
    | ⟨0, _⟩ => show win4_0.index t (0 : Fin 2) * 4000 + 1 * p.val = 4000 * t.val + p.val; omega
    | ⟨1, _⟩ => show win4_0.index t (1 : Fin 2) * 64 + 1 * k.val = k.val; omega
  · show V c main_arg6 (((cfg4.win 1).blk t).view.emb (ix2 k q)) = V c main_arg6 (ix2 k q)
    refine congrArg _ ?_
    funext a; apply Fin.ext
    match a with
    | ⟨0, _⟩ => show win4_1.index t (0 : Fin 2) * 64 + 1 * k.val = k.val; omega
    | ⟨1, _⟩ => show win4_1.index t (1 : Fin 2) * 64 + 1 * q.val = q.val; omega

/-- An index of the result array is in point t's block iff each coordinate is in the block's range on its axis. -/
theorem mem_blk4 (t : Fin cfg4.N) (i : S100000x64.Idx) :
    i ∈ ((cfg4.win 2).blk t).view.set ↔ ∀ a : Fin 2, win4_2.index t a * S4000x64.size a ≤ (i a).val ∧ (i a).val < win4_2.index t a * S4000x64.size a + S4000x64.size a := by
  show i ∈ ((View.whole main_v60).slice (win4_2.rect t)).set ↔ _
  rw [View.set_slice_whole, Rect.mem_set_unit]
  exact Iff.rfl

/-- Every index of the result array is written back by some point: row r by point r / 4000. -/
theorem cover4 (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : (i 0).val / 4000 < cfg4.N := lt_of_lt_of_eq (by omega) N_4.symm
  obtain ⟨t, ht⟩ : ∃ t : Fin cfg4.N, t.val = (i 0).val / 4000 := ⟨⟨_, hN⟩, rfl⟩
  obtain ⟨-, -, -, -, e4, e5⟩ := idx_facts4 t
  refine ⟨t, flush4_2 t, ?_⟩
  rw [mem_blk4]
  intro a
  match a with
  | ⟨0, _⟩ => show win4_2.index t (0 : Fin 2) * 4000 ≤ (i 0).val ∧ (i 0).val < win4_2.index t (0 : Fin 2) * 4000 + 4000; omega
  | ⟨1, _⟩ => show win4_2.index t (1 : Fin 2) * 64 ≤ (i 1).val ∧ (i 1).val < win4_2.index t (1 : Fin 2) * 64 + 64; omega

/-- The array region 4 leaves: the second layer's output times the third layer's matrix. -/
theorem matmul4_array (V : (c : Dev nD) → (b : Ref sig .tc) → Buf (Elt Ideal) ((c : Thread nD τ).loc b)) (c : Dev nD) :
    (dat4 (F := Ideal) V c).arrAt 2 cfg4.N = Cert.Gcn.project (F := Ideal) (V c main_v59) (V c main_arg6) :=
  (dat4 (F := Ideal) V c).arrAt_eq_of_cover 2 _ (fun t _ => flushed4_eq V c t) cover4

end Cert.KernelIdeal.GcnRegions

end
-- ==== Proof.RegionBias.lean ====
/-
  The three bias-and-clamp regions of the idealized kernel, each as one statement about a whole array.

  A region walks 25 grid points; point `t` reads rows `4000 t … 4000 t + 3999` of a 100000 × 64 array and the whole
  64-entry bias, and writes the same rows of the output: entry `(p, q)` of the block becomes
  `max (x (p, q) + b q) 0`. Read at an index, that is the reference's `biasRelu` at row `4000 t + p`, column `q`
  (two `broadcast_in_dim`s of the bias and a splat zero on that side). The 25 row blocks cover every row — row `r`
  lies in block `r / 4000` — so after the region the output array is `biasRelu` of the two arrays it read, as the
  region found them.
-/
import proofs.«132859_j61203283968721_1_alg».proof.Proof.Gen.KernelIdeal.Frame
import proofs.«132859_j61203283968721_1_alg».proof.Proof.Spec
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.GcnRegions

open Idealize.ShloMosaic Idealize.ShloMosaic.TcCoe Idealize.SL.Sem Cert.KernelIdeal Cert.KernelIdeal.Gen
open Idealize.ShloMosaic.ValueIdx
open Idealize.ShloMosaic.Pipeline (Dat)

theorem bias_zeros2 : (![0, 0] : Fin 2 → Nat) = fun _ => 0 := funext fun a => by fin_cases a <;> rfl
theorem bias_zeros1 : (![0] : Fin 1 → Nat) = fun _ => 0 := funext fun a => by fin_cases a <;> rfl

/-! ## One element of a block, and of the array -/

/-- A rank-1 index read through "drop the leading unit coordinate" of a rank-2 index is its second coordinate. -/
theorem bias_tail_ix2 (q : Fin 64) : (fun a : Fin 1 => ix2 (0 : Fin 1) q a.succ) = ix1 q :=
  funext fun a => match a with | ⟨0, _⟩ => rfl

/-- The zero constant as an extended real. -/
abbrev biasZero : Ideal .f32 := Ideal.ofBits .f32 0x00000000#32

/-- The reference's bias-and-clamp at an index: the entry plus the bias of its column, clamped below at 0. -/
theorem biasRelu_apply (a : Cert.Gcn.Feat Ideal) (b : Cert.Gcn.Bias Ideal) (r : Fin 100000) (q : Fin 64) :
    Cert.Gcn.biasRelu a b (ix2 r q) = max (a (ix2 r q) + b (ix1 q)) biasZero := by
  unfold Cert.Gcn.biasRelu
  show max (a (ix2 r q) + broadcastInDim Cert.ReferenceIdeal.S100000x64 ![0, 1] Cert.ReferenceIdeal.Gen.bcast_S1x64_S100000x64_0_1
      (broadcastInDim Cert.ReferenceIdeal.S1x64 ![1] Cert.ReferenceIdeal.Gen.bcast_S64_S1x64_1 b) (ix2 r q)) biasZero = _
  rw [broadcastInDim_apply ![0, 1] Cert.ReferenceIdeal.Gen.bcast_S1x64_S100000x64_0_1 _ (ix2 r q) (ix2 (0 : Fin 1) q)
    (fun a => match a with | ⟨0, _⟩ => rfl | ⟨1, _⟩ => rfl)]
  rw [broadcastInDim_apply ![1] Cert.ReferenceIdeal.Gen.bcast_S64_S1x64_1 b (ix2 (0 : Fin 1) q) (ix1 q)
    (fun a => match a with | ⟨0, _⟩ => rfl)]

/-! ## Region 1: bias and clamp of `main_v43` by `main_arg3` -/

/-- The body's payload at an index of its block: the block's entry plus the bias of its column, clamped below at 0. -/
theorem pay1_apply (x0 : Vec Ideal S4000x64 .f32) (x1 : Vec Ideal S64 .f32) (p : Fin 4000) (q : Fin 64) :
    k1_pay1 x1 x0 (ix2 p q) = max (x0 (ix2 p q) + x1 (ix1 q)) biasZero := by
  unfold k1_pay1
  show max (shapeCast S4000x64 x0 shapeCasts_S4000x64_S4000x64 (ix2 p q)
      + broadcastTo S4000x64 (shapeCast S1x64 x1 shapeCasts_S64_S1x64) broadcasts_S1x64_S4000x64 (ix2 p q)) biasZero = _
  rw [shapeCast_self]
  rw [broadcastTo_apply (shapeCast S1x64 x1 shapeCasts_S64_S1x64) broadcasts_S1x64_S4000x64 (ix2 p q) (ix2 (0 : Fin 1) q)
    (fun a => match a with | ⟨0, _⟩ => rfl | ⟨1, _⟩ => rfl)]
  rw [shapeCast_addUnit_apply ![64] x1 shapeCasts_S64_S1x64 (ix2 (0 : Fin 1) q), bias_tail_ix2]

/-- A block whose entry at `(p, q)` is the array's at `(r, q)`, and a bias block that is the bias: the payload at
    `(p, q)` is the reference's result at `(r, q)`. -/
theorem pay1_eq_biasRelu (A : Cert.Gcn.Feat Ideal) (B : Cert.Gcn.Bias Ideal) (x0 : Vec Ideal S4000x64 .f32) (x1 : Vec Ideal S64 .f32)
    (p : Fin 4000) (q : Fin 64) (r : Fin 100000) (h0 : x0 (ix2 p q) = A (ix2 r q)) (h1 : x1 (ix1 q) = B (ix1 q)) :
    k1_pay1 x1 x0 (ix2 p q) = Cert.Gcn.biasRelu A B (ix2 r q) := by
  rw [pay1_apply, biasRelu_apply, h0, h1]

/-- The printed index maps, decided over the 25 points: the input's row block moves with the output's, which is
    the point's number; the bias is always its one block. -/
theorem idx_facts1 : ∀ t : Fin cfg1.N, win1_0.index t (0 : Fin 2) = t.val
    ∧ win1_0.index t (1 : Fin 2) = 0
    ∧ win1_1.index t (0 : Fin 1) = 0
    ∧ win1_2.index t (0 : Fin 2) = t.val
    ∧ win1_2.index t (1 : Fin 2) = 0 :=
  (by decide +kernel : ∀ t : Fin grid1.N, _)

/-- Every row block is some point's. -/
theorem idx_onto1 : ∀ (b : Fin 25), ∃ t : Fin cfg1.N, win1_2.index t = ![b.val, 0] :=
  (by decide +kernel : ∀ (b : Fin 25), ∃ t : Fin grid1.N, win1_2.index t = ![b.val, 0])

/-- What point `t` writes back is block `t` of the reference's result on the arrays as the region finds them. -/
theorem flushed1_eq (V : (c : Dev nD) → (b : Ref sig .tc) → Buf (Elt Ideal) ((c : Thread nD τ).loc b)) (c : Dev nD) (t : Fin cfg1.N) :
    (dat1 (F := Ideal) V c).flushed 2 t
      = ((cfg1.win 2).blk t).view.read (Elt Ideal) (Cert.Gcn.biasRelu (F := Ideal) (V c main_v43) (V c main_arg3)) := by
  show (cfg1.win 2).cut (grid1.coords t) ((dat1 V c).after 2 t) = _
  rw [after1_2]
  unfold out1_2
  rw [View.canon_unit_zero bias_zeros2]
  simp only [View.ld_unit_zero (S := S4000x64) bias_zeros2, View.ld_unit_zero (S := S64) bias_zeros1]
  obtain ⟨e0, e1, e2, e3, e4⟩ := idx_facts1 t
  have ht : t.val < 25 := Nat.lt_of_lt_of_eq t.isLt N_1
  funext j
  obtain ⟨p, q, rfl⟩ : ∃ (p : Fin 4000) (q : Fin 64), j = ix2 p q := ⟨j 0, j 1, eq_ix2 j⟩
  have hp : p.val < 4000 := p.isLt
  have hr : t.val * 4000 + p.val < 100000 := by omega
  have k0 : ((cfg1.win 0).blk t).view.emb (ix2 p q) = ix2 (⟨t.val * 4000 + p.val, hr⟩ : Fin 100000) q := by
    funext a; apply Fin.ext
    match a with
    | ⟨0, _⟩ => show win1_0.index t (0 : Fin 2) * 4000 + 1 * p.val = t.val * 4000 + p.val; omega
    | ⟨1, _⟩ => show win1_0.index t (1 : Fin 2) * 64 + 1 * q.val = q.val; omega
  have k1 : ((cfg1.win 1).blk t).view.emb (ix1 q) = ix1 q := by
    funext a; apply Fin.ext
    match a with
    | ⟨0, _⟩ => show win1_1.index t (0 : Fin 1) * 64 + 1 * q.val = q.val; omega
  have k2 : ((cfg1.win 2).blk t).view.emb (ix2 p q) = ix2 (⟨t.val * 4000 + p.val, hr⟩ : Fin 100000) q := by
    funext a; apply Fin.ext
    match a with
    | ⟨0, _⟩ => show win1_2.index t (0 : Fin 2) * 4000 + 1 * p.val = t.val * 4000 + p.val; omega
    | ⟨1, _⟩ => show win1_2.index t (1 : Fin 2) * 64 + 1 * q.val = q.val; omega
  show k1_pay1 (iblk1 V c 1 t) (iblk1 V c 0 t) (ix2 p q)
    = Cert.Gcn.biasRelu (F := Ideal) (V c main_v43) (V c main_arg3) (((cfg1.win 2).blk t).view.emb (ix2 p q))
  rw [k2]
  refine pay1_eq_biasRelu _ _ _ _ p q _ ?_ ?_
  · show V c main_v43 (((cfg1.win 0).blk t).view.emb (ix2 p q)) = _
    rw [k0]
  · show V c main_arg3 (((cfg1.win 1).blk t).view.emb (ix1 q)) = _
    rw [k1]

/-- An index of the array is in point `t`'s block iff each coordinate is in the block's range on its axis. -/
theorem mem_blk1 (t : Fin cfg1.N) (i : S100000x64.Idx) :
    i ∈ ((cfg1.win 2).blk t).view.set ↔ ∀ a : Fin 2, win1_2.index t a * S4000x64.size a ≤ (i a).val ∧ (i a).val < win1_2.index t a * S4000x64.size a + S4000x64.size a := by
  show i ∈ ((View.whole main_v44).slice (win1_2.rect t)).set ↔ _
  rw [View.set_slice_whole, Rect.mem_set_unit]
  exact Iff.rfl

/-- Row `r` of the array is in the block of point `r / 4000`: the 25 blocks of 4000 rows cover the 100000 rows. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto1 ⟨(i 0).val / 4000, by omega⟩
  have q0 : win1_2.index t (0 : Fin 2) = (i 0).val / 4000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 64 ≤ (i 1).val ∧ (i 1).val < win1_2.index t (1 : Fin 2) * 64 + 64; omega

/-- THE ARRAY after region 1: the reference's bias-and-clamp of the two arrays the region reads, as it finds them. -/
theorem bias1_array (V : (c : Dev nD) → (b : Ref sig .tc) → Buf (Elt Ideal) ((c : Thread nD τ).loc b)) (c : Dev nD) :
    (dat1 (F := Ideal) V c).arrAt 2 cfg1.N = Cert.Gcn.biasRelu (F := Ideal) (V c main_v43) (V c main_arg3) :=
  (dat1 (F := Ideal) V c).arrAt_eq_of_cover 2 _ (fun t _ => flushed1_eq V c t) cover1

/-! ## Region 3: bias and clamp of `main_v58` by `main_arg5` -/

/-- The body's payload at an index of its block: the block's entry plus the bias of its column, clamped below at 0. -/
theorem pay3_apply (x0 : Vec Ideal S4000x64 .f32) (x1 : Vec Ideal S64 .f32) (p : Fin 4000) (q : Fin 64) :
    k3_pay1 x1 x0 (ix2 p q) = max (x0 (ix2 p q) + x1 (ix1 q)) biasZero := by
  unfold k3_pay1
  show max (shapeCast S4000x64 x0 shapeCasts_S4000x64_S4000x64 (ix2 p q)
      + broadcastTo S4000x64 (shapeCast S1x64 x1 shapeCasts_S64_S1x64) broadcasts_S1x64_S4000x64 (ix2 p q)) biasZero = _
  rw [shapeCast_self]
  rw [broadcastTo_apply (shapeCast S1x64 x1 shapeCasts_S64_S1x64) broadcasts_S1x64_S4000x64 (ix2 p q) (ix2 (0 : Fin 1) q)
    (fun a => match a with | ⟨0, _⟩ => rfl | ⟨1, _⟩ => rfl)]
  rw [shapeCast_addUnit_apply ![64] x1 shapeCasts_S64_S1x64 (ix2 (0 : Fin 1) q), bias_tail_ix2]

/-- A block whose entry at `(p, q)` is the array's at `(r, q)`, and a bias block that is the bias: the payload at
    `(p, q)` is the reference's result at `(r, q)`. -/
theorem pay3_eq_biasRelu (A : Cert.Gcn.Feat Ideal) (B : Cert.Gcn.Bias Ideal) (x0 : Vec Ideal S4000x64 .f32) (x1 : Vec Ideal S64 .f32)
    (p : Fin 4000) (q : Fin 64) (r : Fin 100000) (h0 : x0 (ix2 p q) = A (ix2 r q)) (h1 : x1 (ix1 q) = B (ix1 q)) :
    k3_pay1 x1 x0 (ix2 p q) = Cert.Gcn.biasRelu A B (ix2 r q) := by
  rw [pay3_apply, biasRelu_apply, h0, h1]

/-- The printed index maps, decided over the 25 points: the input's row block moves with the output's, which is
    the point's number; the bias is always its one block. -/
theorem idx_facts3 : ∀ t : Fin cfg3.N, win3_0.index t (0 : Fin 2) = t.val
    ∧ win3_0.index t (1 : Fin 2) = 0
    ∧ win3_1.index t (0 : Fin 1) = 0
    ∧ win3_2.index t (0 : Fin 2) = t.val
    ∧ win3_2.index t (1 : Fin 2) = 0 :=
  (by decide +kernel : ∀ t : Fin grid3.N, _)

/-- Every row block is some point's. -/
theorem idx_onto3 : ∀ (b : Fin 25), ∃ t : Fin cfg3.N, win3_2.index t = ![b.val, 0] :=
  (by decide +kernel : ∀ (b : Fin 25), ∃ t : Fin grid3.N, win3_2.index t = ![b.val, 0])

/-- What point `t` writes back is block `t` of the reference's result on the arrays as the region finds them. -/
theorem flushed3_eq (V : (c : Dev nD) → (b : Ref sig .tc) → Buf (Elt Ideal) ((c : Thread nD τ).loc b)) (c : Dev nD) (t : Fin cfg3.N) :
    (dat3 (F := Ideal) V c).flushed 2 t
      = ((cfg3.win 2).blk t).view.read (Elt Ideal) (Cert.Gcn.biasRelu (F := Ideal) (V c main_v58) (V c main_arg5)) := by
  show (cfg3.win 2).cut (grid3.coords t) ((dat3 V c).after 2 t) = _
  rw [after3_2]
  unfold out3_2
  rw [View.canon_unit_zero bias_zeros2]
  simp only [View.ld_unit_zero (S := S4000x64) bias_zeros2, View.ld_unit_zero (S := S64) bias_zeros1]
  obtain ⟨e0, e1, e2, e3, e4⟩ := idx_facts3 t
  have ht : t.val < 25 := Nat.lt_of_lt_of_eq t.isLt N_3
  funext j
  obtain ⟨p, q, rfl⟩ : ∃ (p : Fin 4000) (q : Fin 64), j = ix2 p q := ⟨j 0, j 1, eq_ix2 j⟩
  have hp : p.val < 4000 := p.isLt
  have hr : t.val * 4000 + p.val < 100000 := by omega
  have k0 : ((cfg3.win 0).blk t).view.emb (ix2 p q) = ix2 (⟨t.val * 4000 + p.val, hr⟩ : Fin 100000) q := by
    funext a; apply Fin.ext
    match a with
    | ⟨0, _⟩ => show win3_0.index t (0 : Fin 2) * 4000 + 1 * p.val = t.val * 4000 + p.val; omega
    | ⟨1, _⟩ => show win3_0.index t (1 : Fin 2) * 64 + 1 * q.val = q.val; omega
  have k1 : ((cfg3.win 1).blk t).view.emb (ix1 q) = ix1 q := by
    funext a; apply Fin.ext
    match a with
    | ⟨0, _⟩ => show win3_1.index t (0 : Fin 1) * 64 + 1 * q.val = q.val; omega
  have k2 : ((cfg3.win 2).blk t).view.emb (ix2 p q) = ix2 (⟨t.val * 4000 + p.val, hr⟩ : Fin 100000) q := by
    funext a; apply Fin.ext
    match a with
    | ⟨0, _⟩ => show win3_2.index t (0 : Fin 2) * 4000 + 1 * p.val = t.val * 4000 + p.val; omega
    | ⟨1, _⟩ => show win3_2.index t (1 : Fin 2) * 64 + 1 * q.val = q.val; omega
  show k3_pay1 (iblk3 V c 1 t) (iblk3 V c 0 t) (ix2 p q)
    = Cert.Gcn.biasRelu (F := Ideal) (V c main_v58) (V c main_arg5) (((cfg3.win 2).blk t).view.emb (ix2 p q))
  rw [k2]
  refine pay3_eq_biasRelu _ _ _ _ p q _ ?_ ?_
  · show V c main_v58 (((cfg3.win 0).blk t).view.emb (ix2 p q)) = _
    rw [k0]
  · show V c main_arg5 (((cfg3.win 1).blk t).view.emb (ix1 q)) = _
    rw [k1]

/-- An index of the array is in point `t`'s block iff each coordinate is in the block's range on its axis. -/
theorem mem_blk3 (t : Fin cfg3.N) (i : S100000x64.Idx) :
    i ∈ ((cfg3.win 2).blk t).view.set ↔ ∀ a : Fin 2, win3_2.index t a * S4000x64.size a ≤ (i a).val ∧ (i a).val < win3_2.index t a * S4000x64.size a + S4000x64.size a := by
  show i ∈ ((View.whole main_v59).slice (win3_2.rect t)).set ↔ _
  rw [View.set_slice_whole, Rect.mem_set_unit]
  exact Iff.rfl

/-- Row `r` of the array is in the block of point `r / 4000`: the 25 blocks of 4000 rows cover the 100000 rows. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := idx_onto3 ⟨(i 0).val / 4000, by omega⟩
  have q0 : win3_2.index t (0 : Fin 2) = (i 0).val / 4000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 4000 ≤ (i 0).val ∧ (i 0).val < win3_2.index t (0 : Fin 2) * 4000 + 4000; omega
  | ⟨1, _⟩ => show win3_2.index t (1 : Fin 2) * 64 ≤ (i 1).val ∧ (i 1).val < win3_2.index t (1 : Fin 2) * 64 + 64; omega

/-- THE ARRAY after region 3: the reference's bias-and-clamp of the two arrays the region reads, as it finds them. -/
theorem bias3_array (V : (c : Dev nD) → (b : Ref sig .tc) → Buf (Elt Ideal) ((c : Thread nD τ).loc b)) (c : Dev nD) :
    (dat3 (F := Ideal) V c).arrAt 2 cfg3.N = Cert.Gcn.biasRelu (F := Ideal) (V c main_v58) (V c main_arg5) :=
  (dat3 (F := Ideal) V c).arrAt_eq_of_cover 2 _ (fun t _ => flushed3_eq V c t) cover3

/-! ## Region 5: bias and clamp of `main_v73` by `main_arg7` -/

/-- The body's payload at an index of its block: the block's entry plus the bias of its column, clamped below at 0. -/
theorem pay5_apply (x0 : Vec Ideal S4000x64 .f32) (x1 : Vec Ideal S64 .f32) (p : Fin 4000) (q : Fin 64) :
    k5_pay1 x1 x0 (ix2 p q) = max (x0 (ix2 p q) + x1 (ix1 q)) biasZero := by
  unfold k5_pay1
  show max (shapeCast S4000x64 x0 shapeCasts_S4000x64_S4000x64 (ix2 p q)
      + broadcastTo S4000x64 (shapeCast S1x64 x1 shapeCasts_S64_S1x64) broadcasts_S1x64_S4000x64 (ix2 p q)) biasZero = _
  rw [shapeCast_self]
  rw [broadcastTo_apply (shapeCast S1x64 x1 shapeCasts_S64_S1x64) broadcasts_S1x64_S4000x64 (ix2 p q) (ix2 (0 : Fin 1) q)
    (fun a => match a with | ⟨0, _⟩ => rfl | ⟨1, _⟩ => rfl)]
  rw [shapeCast_addUnit_apply ![64] x1 shapeCasts_S64_S1x64 (ix2 (0 : Fin 1) q), bias_tail_ix2]

/-- A block whose entry at `(p, q)` is the array's at `(r, q)`, and a bias block that is the bias: the payload at
    `(p, q)` is the reference's result at `(r, q)`. -/
theorem pay5_eq_biasRelu (A : Cert.Gcn.Feat Ideal) (B : Cert.Gcn.Bias Ideal) (x0 : Vec Ideal S4000x64 .f32) (x1 : Vec Ideal S64 .f32)
    (p : Fin 4000) (q : Fin 64) (r : Fin 100000) (h0 : x0 (ix2 p q) = A (ix2 r q)) (h1 : x1 (ix1 q) = B (ix1 q)) :
    k5_pay1 x1 x0 (ix2 p q) = Cert.Gcn.biasRelu A B (ix2 r q) := by
  rw [pay5_apply, biasRelu_apply, h0, h1]

/-- The printed index maps, decided over the 25 points: the input's row block moves with the output's, which is
    the point's number; the bias is always its one block. -/
theorem idx_facts5 : ∀ t : Fin cfg5.N, win5_0.index t (0 : Fin 2) = t.val
    ∧ win5_0.index t (1 : Fin 2) = 0
    ∧ win5_1.index t (0 : Fin 1) = 0
    ∧ win5_2.index t (0 : Fin 2) = t.val
    ∧ win5_2.index t (1 : Fin 2) = 0 :=
  (by decide +kernel : ∀ t : Fin grid5.N, _)

/-- Every row block is some point's. -/
theorem idx_onto5 : ∀ (b : Fin 25), ∃ t : Fin cfg5.N, win5_2.index t = ![b.val, 0] :=
  (by decide +kernel : ∀ (b : Fin 25), ∃ t : Fin grid5.N, win5_2.index t = ![b.val, 0])

/-- What point `t` writes back is block `t` of the reference's result on the arrays as the region finds them. -/
theorem flushed5_eq (V : (c : Dev nD) → (b : Ref sig .tc) → Buf (Elt Ideal) ((c : Thread nD τ).loc b)) (c : Dev nD) (t : Fin cfg5.N) :
    (dat5 (F := Ideal) V c).flushed 2 t
      = ((cfg5.win 2).blk t).view.read (Elt Ideal) (Cert.Gcn.biasRelu (F := Ideal) (V c main_v73) (V c main_arg7)) := by
  show (cfg5.win 2).cut (grid5.coords t) ((dat5 V c).after 2 t) = _
  rw [after5_2]
  unfold out5_2
  rw [View.canon_unit_zero bias_zeros2]
  simp only [View.ld_unit_zero (S := S4000x64) bias_zeros2, View.ld_unit_zero (S := S64) bias_zeros1]
  obtain ⟨e0, e1, e2, e3, e4⟩ := idx_facts5 t
  have ht : t.val < 25 := Nat.lt_of_lt_of_eq t.isLt N_5
  funext j
  obtain ⟨p, q, rfl⟩ : ∃ (p : Fin 4000) (q : Fin 64), j = ix2 p q := ⟨j 0, j 1, eq_ix2 j⟩
  have hp : p.val < 4000 := p.isLt
  have hr : t.val * 4000 + p.val < 100000 := by omega
  have k0 : ((cfg5.win 0).blk t).view.emb (ix2 p q) = ix2 (⟨t.val * 4000 + p.val, hr⟩ : Fin 100000) q := by
    funext a; apply Fin.ext
    match a with
    | ⟨0, _⟩ => show win5_0.index t (0 : Fin 2) * 4000 + 1 * p.val = t.val * 4000 + p.val; omega
    | ⟨1, _⟩ => show win5_0.index t (1 : Fin 2) * 64 + 1 * q.val = q.val; omega
  have k1 : ((cfg5.win 1).blk t).view.emb (ix1 q) = ix1 q := by
    funext a; apply Fin.ext
    match a with
    | ⟨0, _⟩ => show win5_1.index t (0 : Fin 1) * 64 + 1 * q.val = q.val; omega
  have k2 : ((cfg5.win 2).blk t).view.emb (ix2 p q) = ix2 (⟨t.val * 4000 + p.val, hr⟩ : Fin 100000) q := by
    funext a; apply Fin.ext
    match a with
    | ⟨0, _⟩ => show win5_2.index t (0 : Fin 2) * 4000 + 1 * p.val = t.val * 4000 + p.val; omega
    | ⟨1, _⟩ => show win5_2.index t (1 : Fin 2) * 64 + 1 * q.val = q.val; omega
  show k5_pay1 (iblk5 V c 1 t) (iblk5 V c 0 t) (ix2 p q)
    = Cert.Gcn.biasRelu (F := Ideal) (V c main_v73) (V c main_arg7) (((cfg5.win 2).blk t).view.emb (ix2 p q))
  rw [k2]
  refine pay5_eq_biasRelu _ _ _ _ p q _ ?_ ?_
  · show V c main_v73 (((cfg5.win 0).blk t).view.emb (ix2 p q)) = _
    rw [k0]
  · show V c main_arg7 (((cfg5.win 1).blk t).view.emb (ix1 q)) = _
    rw [k1]

/-- An index of the array is in point `t`'s block iff each coordinate is in the block's range on its axis. -/
theorem mem_blk5 (t : Fin cfg5.N) (i : S100000x64.Idx) :
    i ∈ ((cfg5.win 2).blk t).view.set ↔ ∀ a : Fin 2, win5_2.index t a * S4000x64.size a ≤ (i a).val ∧ (i a).val < win5_2.index t a * S4000x64.size a + S4000x64.size a := by
  show i ∈ ((View.whole main_v74).slice (win5_2.rect t)).set ↔ _
  rw [View.set_slice_whole, Rect.mem_set_unit]
  exact Iff.rfl

/-- Row `r` of the array is in the block of point `r / 4000`: the 25 blocks of 4000 rows cover the 100000 rows. -/
theorem cover5 (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  obtain ⟨t, ht⟩ := idx_onto5 ⟨(i 0).val / 4000, by omega⟩
  have q0 : win5_2.index t (0 : Fin 2) = (i 0).val / 4000 := congrFun ht 0
  have q1 : win5_2.index t (1 : Fin 2) = 0 := congrFun ht 1
  refine ⟨t, flush5_2 t, ?_⟩
  rw [mem_blk5]
  intro a
  match a with
  | ⟨0, _⟩ => show win5_2.index t (0 : Fin 2) * 4000 ≤ (i 0).val ∧ (i 0).val < win5_2.index t (0 : Fin 2) * 4000 + 4000; omega
  | ⟨1, _⟩ => show win5_2.index t (1 : Fin 2) * 64 ≤ (i 1).val ∧ (i 1).val < win5_2.index t (1 : Fin 2) * 64 + 64; omega

/-- THE ARRAY after region 5: the reference's bias-and-clamp of the two arrays the region reads, as it finds them. -/
theorem bias5_array (V : (c : Dev nD) → (b : Ref sig .tc) → Buf (Elt Ideal) ((c : Thread nD τ).loc b)) (c : Dev nD) :
    (dat5 (F := Ideal) V c).arrAt 2 cfg5.N = Cert.Gcn.biasRelu (F := Ideal) (V c main_v73) (V c main_arg7) :=
  (dat5 (F := Ideal) V c).arrAt_eq_of_cover 2 _ (fun t _ => flushed5_eq V c t) cover5

end Cert.KernelIdeal.GcnRegions

end
-- ==== Proof.KernelHost.lean ====
/-
  The host stretches of the idealized kernel, read back as pure functions of the buffer contents they start from.

  Between its six tiled regions the kernel runs straight lines of whole-array operations. Each line is a fold over a
  literal list of operations; at a buffer the line writes, the fold is the composed term of the operations that feed
  it, and at a buffer no operation writes, the fold leaves the contents alone. This file states both kinds of fact
  over an arbitrary starting valuation: the edge columns, the edge weights and the three aggregations as the
  functions of the specification, and, for every buffer a later step still reads, that a stretch keeps it.
-/
import proofs.«132859_j61203283968721_1_alg».proof.Proof.Gen.KernelIdeal.Frame
import proofs.«132859_j61203283968721_1_alg».proof.Proof.Spec
import Idealize.ShloMosaic.Lib.StableHlo.Run

set_option maxRecDepth 16384

noncomputable section

namespace Cert.KernelIdeal.GcnHost

open Idealize.ShloMosaic Idealize.ShloMosaic.TcCoe Idealize.SL.Sem Cert.KernelIdeal Cert.KernelIdeal.Gen

variable {F : FTy → Type} [FloatOps F]

/-! ## A buffer no operation of a stretch writes keeps its contents -/

/-- Closes `after ops U b = U b` for one of the six literal stretches and a literal buffer `b` none of its
    operations writes: the stretch's writes are listed one by one, and each is a different reference from `b`. -/
local macro "not_written" : tactic =>
  `(tactic| (refine StableHlo.after_of_forall_not_mem _ _ (List.forall_iff_forall_mem.mp ?_)
             simp only [hostOps0, hostOps0_1, hostOps0_2, hostOps1, hostOps3, hostOps5,
               List.flatten_cons, List.flatten_nil, List.append_nil, List.cons_append, List.nil_append, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

/-! ### Stretch `hostOps0` -/

theorem keep0_arg0 (U : Valuation τ sig (Elt F)) : StableHlo.after hostOps0 U (Proc.devRef .tc main_arg0) = U (Proc.devRef .tc main_arg0) := by not_written
theorem keep0_arg2 (U : Valuation τ sig (Elt F)) : StableHlo.after hostOps0 U (Proc.devRef .tc main_arg2) = U (Proc.devRef .tc main_arg2) := by not_written
theorem keep0_arg3 (U : Valuation τ sig (Elt F)) : StableHlo.after hostOps0 U (Proc.devRef .tc main_arg3) = U (Proc.devRef .tc main_arg3) := by not_written
theorem keep0_arg4 (U : Valuation τ sig (Elt F)) : StableHlo.after hostOps0 U (Proc.devRef .tc main_arg4) = U (Proc.devRef .tc main_arg4) := by not_written
theorem keep0_arg5 (U : Valuation τ sig (Elt F)) : StableHlo.after hostOps0 U (Proc.devRef .tc main_arg5) = U (Proc.devRef .tc main_arg5) := by not_written
theorem keep0_arg6 (U : Valuation τ sig (Elt F)) : StableHlo.after hostOps0 U (Proc.devRef .tc main_arg6) = U (Proc.devRef .tc main_arg6) := by not_written
theorem keep0_arg7 (U : Valuation τ sig (Elt F)) : StableHlo.after hostOps0 U (Proc.devRef .tc main_arg7) = U (Proc.devRef .tc main_arg7) := by not_written

/-! ### Stretch `hostOps1` -/

theorem keep1_arg3 (U : Valuation τ sig (Elt F)) : StableHlo.after hostOps1 U (Proc.devRef .tc main_arg3) = U (Proc.devRef .tc main_arg3) := by not_written
theorem keep1_arg4 (U : Valuation τ sig (Elt F)) : StableHlo.after hostOps1 U (Proc.devRef .tc main_arg4) = U (Proc.devRef .tc main_arg4) := by not_written
theorem keep1_arg5 (U : Valuation τ sig (Elt F)) : StableHlo.after hostOps1 U (Proc.devRef .tc main_arg5) = U (Proc.devRef .tc main_arg5) := by not_written
theorem keep1_arg6 (U : Valuation τ sig (Elt F)) : StableHlo.after hostOps1 U (Proc.devRef .tc main_arg6) = U (Proc.devRef .tc main_arg6) := by not_written
theorem keep1_arg7 (U : Valuation τ sig (Elt F)) : StableHlo.after hostOps1 U (Proc.devRef .tc main_arg7) = U (Proc.devRef .tc main_arg7) := by not_written
theorem keep1_v5 (U : Valuation τ sig (Elt F)) : StableHlo.after hostOps1 U (Proc.devRef .tc main_v5) = U (Proc.devRef .tc main_v5) := by not_written
theorem keep1_v6 (U : Valuation τ sig (Elt F)) : StableHlo.after hostOps1 U (Proc.devRef .tc main_v6) = U (Proc.devRef .tc main_v6) := by not_written
theorem keep1_v29 (U : Valuation τ sig (Elt F)) : StableHlo.after hostOps1 U (Proc.devRef .tc main_v29) = U (Proc.devRef .tc main_v29) := by not_written

/-! ### Stretch `hostOps3` -/

theorem keep3_arg5 (U : Valuation τ sig (Elt F)) : StableHlo.after hostOps3 U (Proc.devRef .tc main_arg5) = U (Proc.devRef .tc main_arg5) := by not_written
theorem keep3_arg6 (U : Valuation τ sig (Elt F)) : StableHlo.after hostOps3 U (Proc.devRef .tc main_arg6) = U (Proc.devRef .tc main_arg6) := by not_written
theorem keep3_arg7 (U : Valuation τ sig (Elt F)) : StableHlo.after hostOps3 U (Proc.devRef .tc main_arg7) = U (Proc.devRef .tc main_arg7) := by not_written
theorem keep3_v5 (U : Valuation τ sig (Elt F)) : StableHlo.after hostOps3 U (Proc.devRef .tc main_v5) = U (Proc.devRef .tc main_v5) := by not_written
theorem keep3_v6 (U : Valuation τ sig (Elt F)) : StableHlo.after hostOps3 U (Proc.devRef .tc main_v6) = U (Proc.devRef .tc main_v6) := by not_written
theorem keep3_v29 (U : Valuation τ sig (Elt F)) : StableHlo.after hostOps3 U (Proc.devRef .tc main_v29) = U (Proc.devRef .tc main_v29) := by not_written

/-! ### Stretch `hostOps5` -/

theorem keep5_arg7 (U : Valuation τ sig (Elt F)) : StableHlo.after hostOps5 U (Proc.devRef .tc main_arg7) = U (Proc.devRef .tc main_arg7) := by not_written

/-! ### Stretch `hostOps0_1` -/

theorem keep0_1_arg0 (U : Valuation τ sig (Elt F)) : StableHlo.after hostOps0_1 U (Proc.devRef .tc main_arg0) = U (Proc.devRef .tc main_arg0) := by not_written
theorem keep0_1_arg2 (U : Valuation τ sig (Elt F)) : StableHlo.after hostOps0_1 U (Proc.devRef .tc main_arg2) = U (Proc.devRef .tc main_arg2) := by not_written
theorem keep0_1_arg3 (U : Valuation τ sig (Elt F)) : StableHlo.after hostOps0_1 U (Proc.devRef .tc main_arg3) = U (Proc.devRef .tc main_arg3) := by not_written
theorem keep0_1_arg4 (U : Valuation τ sig (Elt F)) : StableHlo.after hostOps0_1 U (Proc.devRef .tc main_arg4) = U (Proc.devRef .tc main_arg4) := by not_written
theorem keep0_1_arg5 (U : Valuation τ sig (Elt F)) : StableHlo.after hostOps0_1 U (Proc.devRef .tc main_arg5) = U (Proc.devRef .tc main_arg5) := by not_written
theorem keep0_1_arg6 (U : Valuation τ sig (Elt F)) : StableHlo.after hostOps0_1 U (Proc.devRef .tc main_arg6) = U (Proc.devRef .tc main_arg6) := by not_written
theorem keep0_1_arg7 (U : Valuation τ sig (Elt F)) : StableHlo.after hostOps0_1 U (Proc.devRef .tc main_arg7) = U (Proc.devRef .tc main_arg7) := by not_written

/-! ### Stretch `hostOps0_2` -/

theorem keep0_2_arg0 (U : Valuation τ sig (Elt F)) : StableHlo.after hostOps0_2 U (Proc.devRef .tc main_arg0) = U (Proc.devRef .tc main_arg0) := by not_written
theorem keep0_2_arg2 (U : Valuation τ sig (Elt F)) : StableHlo.after hostOps0_2 U (Proc.devRef .tc main_arg2) = U (Proc.devRef .tc main_arg2) := by not_written
theorem keep0_2_arg3 (U : Valuation τ sig (Elt F)) : StableHlo.after hostOps0_2 U (Proc.devRef .tc main_arg3) = U (Proc.devRef .tc main_arg3) := by not_written
theorem keep0_2_arg4 (U : Valuation τ sig (Elt F)) : StableHlo.after hostOps0_2 U (Proc.devRef .tc main_arg4) = U (Proc.devRef .tc main_arg4) := by not_written
theorem keep0_2_arg5 (U : Valuation τ sig (Elt F)) : StableHlo.after hostOps0_2 U (Proc.devRef .tc main_arg5) = U (Proc.devRef .tc main_arg5) := by not_written
theorem keep0_2_arg6 (U : Valuation τ sig (Elt F)) : StableHlo.after hostOps0_2 U (Proc.devRef .tc main_arg6) = U (Proc.devRef .tc main_arg6) := by not_written
theorem keep0_2_arg7 (U : Valuation τ sig (Elt F)) : StableHlo.after hostOps0_2 U (Proc.devRef .tc main_arg7) = U (Proc.devRef .tc main_arg7) := by not_written

/-! ## The aggregations: one stretch each, the same sixteen operations over the layer's projected features -/

theorem agg1_after (U : Valuation τ sig (Elt F)) : StableHlo.after hostOps1 U (Proc.devRef .tc main_v43) = Cert.Gcn.aggregate (U (Proc.devRef .tc main_v5)) (U (Proc.devRef .tc main_v6)) (U (Proc.devRef .tc main_v29)) (U (Proc.devRef .tc main_v30)) := by
  unfold Cert.Gcn.aggregate Cert.Gcn.wrapCol
  after_results_simp
  rfl

theorem agg3_after (U : Valuation τ sig (Elt F)) : StableHlo.after hostOps3 U (Proc.devRef .tc main_v58) = Cert.Gcn.aggregate (U (Proc.devRef .tc main_v5)) (U (Proc.devRef .tc main_v6)) (U (Proc.devRef .tc main_v29)) (U (Proc.devRef .tc main_v45)) := by
  unfold Cert.Gcn.aggregate Cert.Gcn.wrapCol
  after_results_simp
  rfl

theorem agg5_after (U : Valuation τ sig (Elt F)) : StableHlo.after hostOps5 U (Proc.devRef .tc main_v73) = Cert.Gcn.aggregate (U (Proc.devRef .tc main_v5)) (U (Proc.devRef .tc main_v6)) (U (Proc.devRef .tc main_v29)) (U (Proc.devRef .tc main_v60)) := by
  unfold Cert.Gcn.aggregate Cert.Gcn.wrapCol
  after_results_simp
  rfl

/-! ## The edge columns and the edge weights: the three stretches before the first region

The first stretch is cut after its seventh operation: the first seven build the two edge columns (a row of the edge
list, reshaped, followed by the node numbers), the other eleven the degree test and the inverse square roots. -/

/-- The first stretch as its first seven operations followed by the rest. -/
theorem after0_cut (U : Valuation τ sig (Elt F)) :
    StableHlo.after hostOps0 U = StableHlo.after (hostOps0.drop 7) (StableHlo.after (hostOps0.take 7) U) := by
  rw [← StableHlo.after_append, List.take_append_drop]

/-- The source column after the first seven operations. -/
theorem src0a (U : Valuation τ sig (Elt F)) : StableHlo.after (hostOps0.take 7) U (Proc.devRef .tc main_v5) = Cert.Gcn.edgeSrc (U (Proc.devRef .tc main_arg1)) := by
  unfold Cert.Gcn.edgeSrc
  simp only [hostOps0, List.take_succ_cons, List.take_zero]
  after_results_simp
  refine congrArg₂ (fun a b => concatenate S1100000 0 [⟨S1000000, a⟩, ⟨S100000, b⟩] concatenates_S1000000_S100000_S1100000_d0) ?_ ?_
  · after_results_simp; rfl
  · after_results_simp

/-- The target column after the first seven operations. -/
theorem dst0a (U : Valuation τ sig (Elt F)) : StableHlo.after (hostOps0.take 7) U (Proc.devRef .tc main_v6) = Cert.Gcn.edgeDst (U (Proc.devRef .tc main_arg1)) := by
  unfold Cert.Gcn.edgeDst
  simp only [hostOps0, List.take_succ_cons, List.take_zero]
  after_results_simp
  refine congrArg₂ (fun a b => concatenate S1100000 0 [⟨S1000000, a⟩, ⟨S100000, b⟩] concatenates_S1000000_S100000_S1100000_d0) ?_ ?_
  · after_results_simp; rfl
  · after_results_simp

/-- The rest of the first stretch writes neither edge column. -/
theorem keep0b_v5 (V : Valuation τ sig (Elt F)) : StableHlo.after (hostOps0.drop 7) V (Proc.devRef .tc main_v5) = V (Proc.devRef .tc main_v5) := by
  simp only [hostOps0, List.drop_succ_cons, List.drop_zero]
  after_results_simp
theorem keep0b_v6 (V : Valuation τ sig (Elt F)) : StableHlo.after (hostOps0.drop 7) V (Proc.devRef .tc main_v6) = V (Proc.devRef .tc main_v6) := by
  simp only [hostOps0, List.drop_succ_cons, List.drop_zero]
  after_results_simp

/-- The degree test, the inverse square roots and the zero, as the rest of the first stretch leaves them. -/
theorem pos0b (V : Valuation τ sig (Elt F)) : StableHlo.after (hostOps0.drop 7) V (Proc.devRef .tc main_v12)
    = cmpf .ogt (Cert.Gcn.degree (V (Proc.devRef .tc main_v6))) (broadcastInDim S100000 ![] bcast_S_S100000 (constant S_ .f32 0x00000000#32)) := by
  unfold Cert.Gcn.degree
  simp only [hostOps0, List.drop_succ_cons, List.drop_zero]
  after_results_simp
  rfl
theorem rsqrt0b (V : Valuation τ sig (Elt F)) : StableHlo.after (hostOps0.drop 7) V (Proc.devRef .tc main_v13)
    = Host.rsqrt (Cert.Gcn.degree (V (Proc.devRef .tc main_v6))) := by
  unfold Cert.Gcn.degree
  simp only [hostOps0, List.drop_succ_cons, List.drop_zero]
  after_results_simp
  rfl
theorem zero0b (V : Valuation τ sig (Elt F)) : StableHlo.after (hostOps0.drop 7) V (Proc.devRef .tc main_cst_2)
    = (constant S_ .f32 0x00000000#32 : (⟨S_, .f32⟩ : BufTy).Contents (Elt F)) := by
  simp only [hostOps0, List.drop_succ_cons, List.drop_zero]
  after_results_simp

/-- The second stretch selects the inverse square root where the degree is positive and zero elsewhere, and writes
    neither edge column. -/
theorem sel0_1 (V : Valuation τ sig (Elt F)) : StableHlo.after hostOps0_1 V (Proc.devRef .tc main_v14)
    = select (V (Proc.devRef .tc main_v12)) (V (Proc.devRef .tc main_v13))
        (broadcastInDim S100000 ![] bcast_S_S100000 (id (V (Proc.devRef .tc main_cst_2)))) := by
  after_results_simp
  rfl
theorem keep0_1_v5 (V : Valuation τ sig (Elt F)) : StableHlo.after hostOps0_1 V (Proc.devRef .tc main_v5) = V (Proc.devRef .tc main_v5) := by not_written
theorem keep0_1_v6 (V : Valuation τ sig (Elt F)) : StableHlo.after hostOps0_1 V (Proc.devRef .tc main_v6) = V (Proc.devRef .tc main_v6) := by not_written

/-- The third stretch gathers the inverse square roots at both ends of every edge and multiplies them, and writes
    neither edge column. -/
theorem norm0_2 (V : Valuation τ sig (Elt F)) : StableHlo.after hostOps0_2 V (Proc.devRef .tc main_v29)
    = mulf (Host.gather gather_S100000_S1100000x1_S1100000_n_0_n_n_0_1_1 (V (Proc.devRef .tc main_v14)) (Cert.Gcn.wrapCol (V (Proc.devRef .tc main_v5))))
        (Host.gather gather_S100000_S1100000x1_S1100000_n_0_n_n_0_1_1 (V (Proc.devRef .tc main_v14)) (Cert.Gcn.wrapCol (V (Proc.devRef .tc main_v6)))) := by
  unfold Cert.Gcn.wrapCol
  after_results_simp
theorem keep0_2_v5 (V : Valuation τ sig (Elt F)) : StableHlo.after hostOps0_2 V (Proc.devRef .tc main_v5) = V (Proc.devRef .tc main_v5) := by not_written
theorem keep0_2_v6 (V : Valuation τ sig (Elt F)) : StableHlo.after hostOps0_2 V (Proc.devRef .tc main_v6) = V (Proc.devRef .tc main_v6) := by not_written

/-- The source column when the first region is entered. -/
theorem src_after (U : Valuation τ sig (Elt F)) : StableHlo.after hostOps0_2 (StableHlo.after hostOps0_1 (StableHlo.after hostOps0 U)) (Proc.devRef .tc main_v5) = Cert.Gcn.edgeSrc (U (Proc.devRef .tc main_arg1)) := by
  rw [keep0_2_v5, keep0_1_v5, after0_cut, keep0b_v5, src0a]

/-- The target column when the first region is entered. -/
theorem dst_after (U : Valuation τ sig (Elt F)) : StableHlo.after hostOps0_2 (StableHlo.after hostOps0_1 (StableHlo.after hostOps0 U)) (Proc.devRef .tc main_v6) = Cert.Gcn.edgeDst (U (Proc.devRef .tc main_arg1)) := by
  rw [keep0_2_v6, keep0_1_v6, after0_cut, keep0b_v6, dst0a]

/-- The edge weights when the first region is entered. -/
theorem norm_after (U : Valuation τ sig (Elt F)) : StableHlo.after hostOps0_2 (StableHlo.after hostOps0_1 (StableHlo.after hostOps0 U)) (Proc.devRef .tc main_v29) = Cert.Gcn.edgeNorm (Cert.Gcn.edgeSrc (U (Proc.devRef .tc main_arg1))) (Cert.Gcn.edgeDst (U (Proc.devRef .tc main_arg1))) := by
  rw [norm0_2, keep0_1_v5, keep0_1_v6, sel0_1, after0_cut, keep0b_v5, keep0b_v6, pos0b, rsqrt0b, zero0b, src0a, dst0a]
  rfl

end Cert.KernelIdeal.GcnHost

end
-- ==== Proof.KernelWalk.lean ====
/-
  What the idealized kernel's result array holds, as a function of the launch memory: the fold of @main's twelve
  segments walked from the launch to the last boundary.

  The fold's contents at a boundary are named `Wk`. A host stretch's result is its operations' function of the
  stretch's entry contents, a region's output array is its whole-array function of the region's entry contents, and a
  buffer that a segment does not write keeps its contents across it. Walking forward: the edge columns and the edge
  weights are fixed before the first region and never written again; each layer's product, aggregate and clamped sum
  is the layer's function of the previous layer's; the last region's output is three layers of the arguments.
-/
import proofs.«132859_j61203283968721_1_alg».proof.Proof.Gen.KernelIdeal.Frame
import proofs.«132859_j61203283968721_1_alg».proof.Proof.Spec
import Idealize.ShloMosaic.PureOps.Ideal
import proofs.«132859_j61203283968721_1_alg».proof.Proof.RegionMatmul
import proofs.«132859_j61203283968721_1_alg».proof.Proof.RegionBias
import proofs.«132859_j61203283968721_1_alg».proof.Proof.KernelHost

set_option maxRecDepth 16384

noncomputable section

namespace Cert.KernelIdeal.GcnWalk

open Idealize.ShloMosaic Idealize.ShloMosaic.TcCoe Idealize.SL.Sem
open Cert.KernelIdeal Cert.KernelIdeal.Gen Cert.KernelIdeal.GcnRegions Cert.KernelIdeal.GcnHost Cert.Gcn

variable (m : (ℓ : Loc nD τ sig) → Buf (Elt Ideal) ℓ) (ρ : Dev nD → PrngReg) (c : Dev nD)

/-! ## The graph's columns and the three layers, of the launch memory -/

/-- The edges' sources (with the self loops), of the launched edge list. -/
abbrev eS : EdgeIdx Ideal := edgeSrc (m ((c : Thread nD τ).loc main_arg1))
/-- The edges' targets. -/
abbrev eD : EdgeIdx Ideal := edgeDst (m ((c : Thread nD τ).loc main_arg1))
/-- The edges' weights. -/
abbrev eN : EdgeWt Ideal := edgeNorm (eS m c) (eD m c)
/-- The first layer's product, aggregate and output. -/
abbrev p1 : Feat Ideal := project (m ((c : Thread nD τ).loc main_arg0)) (m ((c : Thread nD τ).loc main_arg2))
abbrev a1 : Feat Ideal := aggregate (eS m c) (eD m c) (eN m c) (p1 m c)
abbrev l1 : Feat Ideal := biasRelu (a1 m c) (m ((c : Thread nD τ).loc main_arg3))
/-- The second layer's. -/
abbrev p2 : Feat Ideal := project (l1 m c) (m ((c : Thread nD τ).loc main_arg4))
abbrev a2 : Feat Ideal := aggregate (eS m c) (eD m c) (eN m c) (p2 m c)
abbrev l2 : Feat Ideal := biasRelu (a2 m c) (m ((c : Thread nD τ).loc main_arg5))
/-- The third layer's. -/
abbrev p3 : Feat Ideal := project (l2 m c) (m ((c : Thread nD τ).loc main_arg6))
abbrev a3 : Feat Ideal := aggregate (eS m c) (eD m c) (eN m c) (p3 m c)
abbrev l3 : Feat Ideal := biasRelu (a3 m c) (m ((c : Thread nD τ).loc main_arg7))

/-- The third layer's output is the three-layer network of the arguments. -/
theorem l3_eq : l3 m c = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := rfl

/-! ## Region 0's entry (after the three leading host stretches) -/

theorem src3 : W3 m ρ c (Proc.devRef .tc main_v5) = eS m c := src_after (W0 m ρ c)
theorem dst3 : W3 m ρ c (Proc.devRef .tc main_v6) = eD m c := dst_after (W0 m ρ c)
theorem norm3 : W3 m ρ c (Proc.devRef .tc main_v29) = eN m c := norm_after (W0 m ρ c)
theorem arg0_3 : W3 m ρ c (Proc.devRef .tc main_arg0) = (m ((c : Thread nD τ).loc main_arg0)) := (keep0_2_arg0 _).trans ((keep0_1_arg0 _).trans (keep0_arg0 _))
theorem arg2_3 : W3 m ρ c (Proc.devRef .tc main_arg2) = (m ((c : Thread nD τ).loc main_arg2)) := (keep0_2_arg2 _).trans ((keep0_1_arg2 _).trans (keep0_arg2 _))
theorem arg3_3 : W3 m ρ c (Proc.devRef .tc main_arg3) = (m ((c : Thread nD τ).loc main_arg3)) := (keep0_2_arg3 _).trans ((keep0_1_arg3 _).trans (keep0_arg3 _))
theorem arg4_3 : W3 m ρ c (Proc.devRef .tc main_arg4) = (m ((c : Thread nD τ).loc main_arg4)) := (keep0_2_arg4 _).trans ((keep0_1_arg4 _).trans (keep0_arg4 _))
theorem arg5_3 : W3 m ρ c (Proc.devRef .tc main_arg5) = (m ((c : Thread nD τ).loc main_arg5)) := (keep0_2_arg5 _).trans ((keep0_1_arg5 _).trans (keep0_arg5 _))
theorem arg6_3 : W3 m ρ c (Proc.devRef .tc main_arg6) = (m ((c : Thread nD τ).loc main_arg6)) := (keep0_2_arg6 _).trans ((keep0_1_arg6 _).trans (keep0_arg6 _))
theorem arg7_3 : W3 m ρ c (Proc.devRef .tc main_arg7) = (m ((c : Thread nD τ).loc main_arg7)) := (keep0_2_arg7 _).trans ((keep0_1_arg7 _).trans (keep0_arg7 _))

/-! ## Region 0 (the first product) and the stretch after it -/

theorem prod4 : W4 m ρ c (Proc.devRef .tc main_v30) = p1 m c :=
  (W4_arr m ρ c 2).trans ((matmul0_array (V3 m ρ) c).trans (congrArg₂ (project (F := Ideal)) (arg0_3 m ρ c) (arg2_3 m ρ c)))
theorem src4 : W4 m ρ c (Proc.devRef .tc main_v5) = eS m c := (W4_of_ne m ρ c main_v5 (by decide)).trans (src3 m ρ c)
theorem dst4 : W4 m ρ c (Proc.devRef .tc main_v6) = eD m c := (W4_of_ne m ρ c main_v6 (by decide)).trans (dst3 m ρ c)
theorem norm4 : W4 m ρ c (Proc.devRef .tc main_v29) = eN m c := (W4_of_ne m ρ c main_v29 (by decide)).trans (norm3 m ρ c)
theorem arg3_4 : W4 m ρ c (Proc.devRef .tc main_arg3) = (m ((c : Thread nD τ).loc main_arg3)) := (W4_of_ne m ρ c main_arg3 (by decide)).trans (arg3_3 m ρ c)
theorem arg4_4 : W4 m ρ c (Proc.devRef .tc main_arg4) = (m ((c : Thread nD τ).loc main_arg4)) := (W4_of_ne m ρ c main_arg4 (by decide)).trans (arg4_3 m ρ c)
theorem arg5_4 : W4 m ρ c (Proc.devRef .tc main_arg5) = (m ((c : Thread nD τ).loc main_arg5)) := (W4_of_ne m ρ c main_arg5 (by decide)).trans (arg5_3 m ρ c)
theorem arg6_4 : W4 m ρ c (Proc.devRef .tc main_arg6) = (m ((c : Thread nD τ).loc main_arg6)) := (W4_of_ne m ρ c main_arg6 (by decide)).trans (arg6_3 m ρ c)
theorem arg7_4 : W4 m ρ c (Proc.devRef .tc main_arg7) = (m ((c : Thread nD τ).loc main_arg7)) := (W4_of_ne m ρ c main_arg7 (by decide)).trans (arg7_3 m ρ c)
theorem agg5 : W5 m ρ c (Proc.devRef .tc main_v43) = a1 m c :=
  (agg1_after (W4 m ρ c)).trans (by rw [src4 m ρ c, dst4 m ρ c, norm4 m ρ c, prod4 m ρ c])
theorem src5 : W5 m ρ c (Proc.devRef .tc main_v5) = eS m c := (keep1_v5 (W4 m ρ c)).trans (src4 m ρ c)
theorem dst5 : W5 m ρ c (Proc.devRef .tc main_v6) = eD m c := (keep1_v6 (W4 m ρ c)).trans (dst4 m ρ c)
theorem norm5 : W5 m ρ c (Proc.devRef .tc main_v29) = eN m c := (keep1_v29 (W4 m ρ c)).trans (norm4 m ρ c)
theorem arg3_5 : W5 m ρ c (Proc.devRef .tc main_arg3) = (m ((c : Thread nD τ).loc main_arg3)) := (keep1_arg3 (W4 m ρ c)).trans (arg3_4 m ρ c)
theorem arg4_5 : W5 m ρ c (Proc.devRef .tc main_arg4) = (m ((c : Thread nD τ).loc main_arg4)) := (keep1_arg4 (W4 m ρ c)).trans (arg4_4 m ρ c)
theorem arg5_5 : W5 m ρ c (Proc.devRef .tc main_arg5) = (m ((c : Thread nD τ).loc main_arg5)) := (keep1_arg5 (W4 m ρ c)).trans (arg5_4 m ρ c)
theorem arg6_5 : W5 m ρ c (Proc.devRef .tc main_arg6) = (m ((c : Thread nD τ).loc main_arg6)) := (keep1_arg6 (W4 m ρ c)).trans (arg6_4 m ρ c)
theorem arg7_5 : W5 m ρ c (Proc.devRef .tc main_arg7) = (m ((c : Thread nD τ).loc main_arg7)) := (keep1_arg7 (W4 m ρ c)).trans (arg7_4 m ρ c)

/-! ## Regions 1 and 2 (the first clamped sum, the second product) and the stretch after them -/

theorem out6 : W6 m ρ c (Proc.devRef .tc main_v44) = l1 m c :=
  (W6_arr m ρ c 2).trans ((bias1_array (V5 m ρ) c).trans (congrArg₂ (biasRelu (F := Ideal)) (agg5 m ρ c) (arg3_5 m ρ c)))
theorem src6 : W6 m ρ c (Proc.devRef .tc main_v5) = eS m c := (W6_of_ne m ρ c main_v5 (by decide)).trans (src5 m ρ c)
theorem dst6 : W6 m ρ c (Proc.devRef .tc main_v6) = eD m c := (W6_of_ne m ρ c main_v6 (by decide)).trans (dst5 m ρ c)
theorem norm6 : W6 m ρ c (Proc.devRef .tc main_v29) = eN m c := (W6_of_ne m ρ c main_v29 (by decide)).trans (norm5 m ρ c)
theorem arg4_6 : W6 m ρ c (Proc.devRef .tc main_arg4) = (m ((c : Thread nD τ).loc main_arg4)) := (W6_of_ne m ρ c main_arg4 (by decide)).trans (arg4_5 m ρ c)
theorem arg5_6 : W6 m ρ c (Proc.devRef .tc main_arg5) = (m ((c : Thread nD τ).loc main_arg5)) := (W6_of_ne m ρ c main_arg5 (by decide)).trans (arg5_5 m ρ c)
theorem arg6_6 : W6 m ρ c (Proc.devRef .tc main_arg6) = (m ((c : Thread nD τ).loc main_arg6)) := (W6_of_ne m ρ c main_arg6 (by decide)).trans (arg6_5 m ρ c)
theorem arg7_6 : W6 m ρ c (Proc.devRef .tc main_arg7) = (m ((c : Thread nD τ).loc main_arg7)) := (W6_of_ne m ρ c main_arg7 (by decide)).trans (arg7_5 m ρ c)
theorem prod7 : W7 m ρ c (Proc.devRef .tc main_v45) = p2 m c :=
  (W7_arr m ρ c 2).trans ((matmul2_array (V6 m ρ) c).trans (congrArg₂ (project (F := Ideal)) (out6 m ρ c) (arg4_6 m ρ c)))
theorem src7 : W7 m ρ c (Proc.devRef .tc main_v5) = eS m c := (W7_of_ne m ρ c main_v5 (by decide)).trans (src6 m ρ c)
theorem dst7 : W7 m ρ c (Proc.devRef .tc main_v6) = eD m c := (W7_of_ne m ρ c main_v6 (by decide)).trans (dst6 m ρ c)
theorem norm7 : W7 m ρ c (Proc.devRef .tc main_v29) = eN m c := (W7_of_ne m ρ c main_v29 (by decide)).trans (norm6 m ρ c)
theorem arg5_7 : W7 m ρ c (Proc.devRef .tc main_arg5) = (m ((c : Thread nD τ).loc main_arg5)) := (W7_of_ne m ρ c main_arg5 (by decide)).trans (arg5_6 m ρ c)
theorem arg6_7 : W7 m ρ c (Proc.devRef .tc main_arg6) = (m ((c : Thread nD τ).loc main_arg6)) := (W7_of_ne m ρ c main_arg6 (by decide)).trans (arg6_6 m ρ c)
theorem arg7_7 : W7 m ρ c (Proc.devRef .tc main_arg7) = (m ((c : Thread nD τ).loc main_arg7)) := (W7_of_ne m ρ c main_arg7 (by decide)).trans (arg7_6 m ρ c)
theorem agg8 : W8 m ρ c (Proc.devRef .tc main_v58) = a2 m c :=
  (agg3_after (W7 m ρ c)).trans (by rw [src7 m ρ c, dst7 m ρ c, norm7 m ρ c, prod7 m ρ c])
theorem src8 : W8 m ρ c (Proc.devRef .tc main_v5) = eS m c := (keep3_v5 (W7 m ρ c)).trans (src7 m ρ c)
theorem dst8 : W8 m ρ c (Proc.devRef .tc main_v6) = eD m c := (keep3_v6 (W7 m ρ c)).trans (dst7 m ρ c)
theorem norm8 : W8 m ρ c (Proc.devRef .tc main_v29) = eN m c := (keep3_v29 (W7 m ρ c)).trans (norm7 m ρ c)
theorem arg5_8 : W8 m ρ c (Proc.devRef .tc main_arg5) = (m ((c : Thread nD τ).loc main_arg5)) := (keep3_arg5 (W7 m ρ c)).trans (arg5_7 m ρ c)
theorem arg6_8 : W8 m ρ c (Proc.devRef .tc main_arg6) = (m ((c : Thread nD τ).loc main_arg6)) := (keep3_arg6 (W7 m ρ c)).trans (arg6_7 m ρ c)
theorem arg7_8 : W8 m ρ c (Proc.devRef .tc main_arg7) = (m ((c : Thread nD τ).loc main_arg7)) := (keep3_arg7 (W7 m ρ c)).trans (arg7_7 m ρ c)

/-! ## Regions 3 and 4 (the second clamped sum, the third product) and the stretch after them -/

theorem out9 : W9 m ρ c (Proc.devRef .tc main_v59) = l2 m c :=
  (W9_arr m ρ c 2).trans ((bias3_array (V8 m ρ) c).trans (congrArg₂ (biasRelu (F := Ideal)) (agg8 m ρ c) (arg5_8 m ρ c)))
theorem src9 : W9 m ρ c (Proc.devRef .tc main_v5) = eS m c := (W9_of_ne m ρ c main_v5 (by decide)).trans (src8 m ρ c)
theorem dst9 : W9 m ρ c (Proc.devRef .tc main_v6) = eD m c := (W9_of_ne m ρ c main_v6 (by decide)).trans (dst8 m ρ c)
theorem norm9 : W9 m ρ c (Proc.devRef .tc main_v29) = eN m c := (W9_of_ne m ρ c main_v29 (by decide)).trans (norm8 m ρ c)
theorem arg6_9 : W9 m ρ c (Proc.devRef .tc main_arg6) = (m ((c : Thread nD τ).loc main_arg6)) := (W9_of_ne m ρ c main_arg6 (by decide)).trans (arg6_8 m ρ c)
theorem arg7_9 : W9 m ρ c (Proc.devRef .tc main_arg7) = (m ((c : Thread nD τ).loc main_arg7)) := (W9_of_ne m ρ c main_arg7 (by decide)).trans (arg7_8 m ρ c)
theorem prod10 : W10 m ρ c (Proc.devRef .tc main_v60) = p3 m c :=
  (W10_arr m ρ c 2).trans ((matmul4_array (V9 m ρ) c).trans (congrArg₂ (project (F := Ideal)) (out9 m ρ c) (arg6_9 m ρ c)))
theorem src10 : W10 m ρ c (Proc.devRef .tc main_v5) = eS m c := (W10_of_ne m ρ c main_v5 (by decide)).trans (src9 m ρ c)
theorem dst10 : W10 m ρ c (Proc.devRef .tc main_v6) = eD m c := (W10_of_ne m ρ c main_v6 (by decide)).trans (dst9 m ρ c)
theorem norm10 : W10 m ρ c (Proc.devRef .tc main_v29) = eN m c := (W10_of_ne m ρ c main_v29 (by decide)).trans (norm9 m ρ c)
theorem arg7_10 : W10 m ρ c (Proc.devRef .tc main_arg7) = (m ((c : Thread nD τ).loc main_arg7)) := (W10_of_ne m ρ c main_arg7 (by decide)).trans (arg7_9 m ρ c)
theorem agg11 : W11 m ρ c (Proc.devRef .tc main_v73) = a3 m c :=
  (agg5_after (W10 m ρ c)).trans (by rw [src10 m ρ c, dst10 m ρ c, norm10 m ρ c, prod10 m ρ c])
theorem arg7_11 : W11 m ρ c (Proc.devRef .tc main_arg7) = (m ((c : Thread nD τ).loc main_arg7)) := (keep5_arg7 (W10 m ρ c)).trans (arg7_10 m ρ c)

/-! ## Region 5: the result -/

/-- After the last region's write-backs the result array holds the three-layer network of the launched arguments. -/
theorem result12 : W12 m ρ c (Proc.devRef .tc main_v74)
    = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W12_arr m ρ c 2).trans ((bias5_array (V11 m ρ) c).trans ((congrArg₂ (biasRelu (F := Ideal)) (agg11 m ρ c) (arg7_11 m ρ c)).trans (l3_eq m c)))

end Cert.KernelIdeal.GcnWalk

end
-- ==== Proof.RefValue.lean ====
/-
  The reference program's fold of host operations, read back as the three-layer graph convolution of its arguments.

  The 109 operations are cut into consecutive stretches: the edge columns (two slices of the edge list, each followed by
  the node numbers), the inverse square root of the in-degree, the edge weights, and then three layers of 23 operations
  each (a matrix product; a gather at the sources, a scaling by the edge weights, a scatter-add at the targets; the
  bias row added and a clamp at 0). Each stretch is read over an arbitrary valuation of the buffers, so that every
  equation is between small terms; a buffer a stretch does not write keeps its contents.
-/
import proofs.«132859_j61203283968721_1_alg».proof.Proof.RefOps
import proofs.«132859_j61203283968721_1_alg».proof.Proof.Spec
import Idealize.ShloMosaic.Lib.StableHlo.Run
import Idealize.ShloMosaic.Lib.Pipeline.Frame

noncomputable section

namespace Cert.ReferenceIdeal.GcnRef

open Cert.ReferenceIdeal Cert.ReferenceIdeal.Gen Idealize.ShloMosaic Idealize.ShloMosaic.TcCoe Idealize.SL.Sem Idealize.ShloMosaic.StableHlo

variable {F : FTy → Type} [FloatOps F]

/-- A buffer that none of a literal stretch's operations writes keeps its contents across the stretch. -/
macro "keep_tac " s:ident : tactic =>
  `(tactic| (refine StableHlo.after_of_forall_not_mem _ _ (List.forall_iff_forall_mem.mp ?_)
             simp only [$s:ident, List.Forall, StableHlo.nullary_writes, StableHlo.unary_writes, StableHlo.binary_writes, StableHlo.ternary_writes, StableHlo.reshape_writes, Finset.mem_singleton]
             repeat' apply And.intro
             all_goals exact StableHlo.devRef_ne_of_ne (by decide)))

/-- Operations 0 … 2 of the reference program. -/
abbrev s0 : List (HloOp τ sig (Elt F)) :=
  [ nullary main_v0 (iotaInDim S100000 32 0),
    unary main_arg1 main_v1 ((extractStridedSlice S1x1000000 ![0, 0] · slices_S2x1000000_S1x1000000_0_0) : (⟨S2x1000000, .i32⟩ : BufTy).Contents (Elt F) → (⟨S1x1000000, .i32⟩ : BufTy).Contents (Elt F)),
    reshape main_v1 main_v2 rfl shapeCasts_S1x1000000_S1000000 ]

/-- Operations 3 … 3 of the reference program. -/
abbrev s1 : List (HloOp τ sig (Elt F)) :=
  [ binary main_v2 main_v0 main_v3 ((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)) ]

/-- Operations 4 … 5 of the reference program. -/
abbrev s2 : List (HloOp τ sig (Elt F)) :=
  [ unary main_arg1 main_v4 ((extractStridedSlice S1x1000000 ![1, 0] · slices_S2x1000000_S1x1000000_1_0) : (⟨S2x1000000, .i32⟩ : BufTy).Contents (Elt F) → (⟨S1x1000000, .i32⟩ : BufTy).Contents (Elt F)),
    reshape main_v4 main_v5 rfl shapeCasts_S1x1000000_S1000000 ]

/-- Operations 6 … 6 of the reference program. -/
abbrev s3 : List (HloOp τ sig (Elt F)) :=
  [ binary main_v5 main_v0 main_v6 ((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)) ]

/-- Operations 7 … 20 of the reference program. -/
abbrev s4 : List (HloOp τ sig (Elt F)) :=
  [ nullary main_cst (constant S_ .f32 0x3F800000#32),
    unary main_cst main_v7 (broadcastInDim S1100000 ![] bcast_S_S1100000 : (⟨S_, .f32⟩ : BufTy).Contents (Elt F) → (⟨S1100000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1100000x1 ![0] bcast_S1100000_S1100000x1_0 : (⟨S1100000, .i32⟩ : BufTy).Contents (Elt F) → (⟨S1100000x1, .i32⟩ : BufTy).Contents (Elt F)),
    ternary main_v8 main_v9 main_v7 main_v10 ((fun x i u => Host.scatterAdd scatter_S100000_S1100000x1_S1100000_n_0_0_1 x i u) : (⟨S100000, .f32⟩ : BufTy).Contents (Elt F) → (⟨S1100000x1, .i32⟩ : BufTy).Contents (Elt F) → (⟨S1100000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- Operations 21 … 39 of the reference program. -/
abbrev s5 : List (HloOp τ sig (Elt F)) :=
  [ nullary main_c (constantI S_ 32 0#32),
    unary main_c main_v15 (broadcastInDim S1100000 ![] bcast_S_S1100000 : (⟨S_, .i32⟩ : BufTy).Contents (Elt F) → (⟨S1100000, .i32⟩ : BufTy).Contents (Elt F)),
    binary main_v3 main_v15 main_v16 (cmpi .slt : (⟨S1100000, .i32⟩ : BufTy).Contents (Elt F) → (⟨S1100000, .i32⟩ : BufTy).Contents (Elt F) → (⟨S1100000, .i1⟩ : BufTy).Contents (Elt F)),
    nullary main_c_3 (constantI S_ 32 100000#32),
    unary main_c_3 main_v17 (broadcastInDim S1100000 ![] bcast_S_S1100000 : (⟨S_, .i32⟩ : BufTy).Contents (Elt F) → (⟨S1100000, .i32⟩ : BufTy).Contents (Elt F)),
    binary main_v3 main_v17 main_v18 (addi : (⟨S1100000, .i32⟩ : BufTy).Contents (Elt F) → (⟨S1100000, .i32⟩ : BufTy).Contents (Elt F) → (⟨S1100000, .i32⟩ : BufTy).Contents (Elt F)),
    ternary main_v16 main_v18 main_v3 main_v19 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v19 main_v20 (broadcastInDim S1100000x1 ![0] bcast_S1100000_S1100000x1_0 : (⟨S1100000, .i32⟩ : BufTy).Contents (Elt F) → (⟨S1100000x1, .i32⟩ : BufTy).Contents (Elt F)),
    binary main_v14 main_v20 main_v21 ((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F)),
    nullary main_c_4 (constantI S_ 32 0#32),
    unary main_c_4 main_v22 (broadcastInDim S1100000 ![] bcast_S_S1100000 : (⟨S_, .i32⟩ : BufTy).Contents (Elt F) → (⟨S1100000, .i32⟩ : BufTy).Contents (Elt F)),
    binary main_v6 main_v22 main_v23 (cmpi .slt : (⟨S1100000, .i32⟩ : BufTy).Contents (Elt F) → (⟨S1100000, .i32⟩ : BufTy).Contents (Elt F) → (⟨S1100000, .i1⟩ : BufTy).Contents (Elt F)),
    nullary main_c_5 (constantI S_ 32 100000#32),
    unary main_c_5 main_v24 (broadcastInDim S1100000 ![] bcast_S_S1100000 : (⟨S_, .i32⟩ : BufTy).Contents (Elt F) → (⟨S1100000, .i32⟩ : BufTy).Contents (Elt F)),
    binary main_v6 main_v24 main_v25 (addi : (⟨S1100000, .i32⟩ : BufTy).Contents (Elt F) → (⟨S1100000, .i32⟩ : BufTy).Contents (Elt F) → (⟨S1100000, .i32⟩ : BufTy).Contents (Elt F)),
    ternary main_v23 main_v25 main_v6 main_v26 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v26 main_v27 (broadcastInDim S1100000x1 ![0] bcast_S1100000_S1100000x1_0 : (⟨S1100000, .i32⟩ : BufTy).Contents (Elt F) → (⟨S1100000x1, .i32⟩ : BufTy).Contents (Elt F)),
    binary main_v14 main_v27 main_v28 ((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F)),
    binary main_v21 main_v28 main_v29 (mulf : (⟨S1100000, .f32⟩ : BufTy).Contents (Elt F) → (⟨S1100000, .f32⟩ : BufTy).Contents (Elt F) → (⟨S1100000, .f32⟩ : BufTy).Contents (Elt F)) ]

/-- Operations 40 … 62 of the reference program. -/
abbrev l1 : List (HloOp τ sig (Elt F)) :=
  [ binary main_arg0 main_arg2 main_v30 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_6 (constantI S_ 32 0#32),
    unary main_c_6 main_v31 (broadcastInDim S1100000 ![] bcast_S_S1100000 : (⟨S_, .i32⟩ : BufTy).Contents (Elt F) → (⟨S1100000, .i32⟩ : BufTy).Contents (Elt F)),
    binary main_v3 main_v31 main_v32 (cmpi .slt : (⟨S1100000, .i32⟩ : BufTy).Contents (Elt F) → (⟨S1100000, .i32⟩ : BufTy).Contents (Elt F) → (⟨S1100000, .i1⟩ : BufTy).Contents (Elt F)),
    nullary main_c_7 (constantI S_ 32 100000#32),
    unary main_c_7 main_v33 (broadcastInDim S1100000 ![] bcast_S_S1100000 : (⟨S_, .i32⟩ : BufTy).Contents (Elt F) → (⟨S1100000, .i32⟩ : BufTy).Contents (Elt F)),
    binary main_v3 main_v33 main_v34 (addi : (⟨S1100000, .i32⟩ : BufTy).Contents (Elt F) → (⟨S1100000, .i32⟩ : BufTy).Contents (Elt F) → (⟨S1100000, .i32⟩ : BufTy).Contents (Elt F)),
    ternary main_v32 main_v34 main_v3 main_v35 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v35 main_v36 (broadcastInDim S1100000x1 ![0] bcast_S1100000_S1100000x1_0 : (⟨S1100000, .i32⟩ : BufTy).Contents (Elt F) → (⟨S1100000x1, .i32⟩ : BufTy).Contents (Elt F)),
    binary main_v30 main_v36 main_v37 ((fun x i => Host.gather gather_S100000x64_S1100000x1_S1100000x64_1_0_n_n_0_1_164 x i) : (⟨S100000x64, .f32⟩ : BufTy).Contents (Elt F) → (⟨S1100000x1, .i32⟩ : BufTy).Contents (Elt F) → (⟨S1100000x64, .f32⟩ : BufTy).Contents (Elt F)),
    unary main_v29 main_v38 (broadcastInDim S1100000x1 ![0] bcast_S1100000_S1100000x1_0 : (⟨S1100000, .f32⟩ : BufTy).Contents (Elt F) → (⟨S1100000x1, .f32⟩ : BufTy).Contents (Elt F)),
    unary main_v38 main_v39 (broadcastInDim S1100000x64 ![0, 1] bcast_S1100000x1_S1100000x64_0_1 : (⟨S1100000x1, .f32⟩ : BufTy).Contents (Elt F) → (⟨S1100000x64, .f32⟩ : BufTy).Contents (Elt F)),
    binary main_v37 main_v39 main_v40 (mulf : (⟨S1100000x64, .f32⟩ : BufTy).Contents (Elt F) → (⟨S1100000x64, .f32⟩ : BufTy).Contents (Elt F) → (⟨S1100000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S1100000x1 ![0] bcast_S1100000_S1100000x1_0 : (⟨S1100000, .i32⟩ : BufTy).Contents (Elt F) → (⟨S1100000x1, .i32⟩ : BufTy).Contents (Elt F)),
    ternary main_v41 main_v42 main_v40 main_v43 ((fun x i u => Host.scatterAdd scatter_S100000x64_S1100000x1_S1100000x64_1_0_0_1 x i u) : (⟨S100000x64, .f32⟩ : BufTy).Contents (Elt F) → (⟨S1100000x1, .i32⟩ : BufTy).Contents (Elt F) → (⟨S1100000x64, .f32⟩ : BufTy).Contents (Elt F) → (⟨S100000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf ]

/-- Operations 63 … 85 of the reference program. -/
abbrev l2 : List (HloOp τ sig (Elt F)) :=
  [ binary main_v47 main_arg4 main_v48 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_9 (constantI S_ 32 0#32),
    unary main_c_9 main_v49 (broadcastInDim S1100000 ![] bcast_S_S1100000 : (⟨S_, .i32⟩ : BufTy).Contents (Elt F) → (⟨S1100000, .i32⟩ : BufTy).Contents (Elt F)),
    binary main_v3 main_v49 main_v50 (cmpi .slt : (⟨S1100000, .i32⟩ : BufTy).Contents (Elt F) → (⟨S1100000, .i32⟩ : BufTy).Contents (Elt F) → (⟨S1100000, .i1⟩ : BufTy).Contents (Elt F)),
    nullary main_c_10 (constantI S_ 32 100000#32),
    unary main_c_10 main_v51 (broadcastInDim S1100000 ![] bcast_S_S1100000 : (⟨S_, .i32⟩ : BufTy).Contents (Elt F) → (⟨S1100000, .i32⟩ : BufTy).Contents (Elt F)),
    binary main_v3 main_v51 main_v52 (addi : (⟨S1100000, .i32⟩ : BufTy).Contents (Elt F) → (⟨S1100000, .i32⟩ : BufTy).Contents (Elt F) → (⟨S1100000, .i32⟩ : BufTy).Contents (Elt F)),
    ternary main_v50 main_v52 main_v3 main_v53 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v53 main_v54 (broadcastInDim S1100000x1 ![0] bcast_S1100000_S1100000x1_0 : (⟨S1100000, .i32⟩ : BufTy).Contents (Elt F) → (⟨S1100000x1, .i32⟩ : BufTy).Contents (Elt F)),
    binary main_v48 main_v54 main_v55 ((fun x i => Host.gather gather_S100000x64_S1100000x1_S1100000x64_1_0_n_n_0_1_164 x i) : (⟨S100000x64, .f32⟩ : BufTy).Contents (Elt F) → (⟨S1100000x1, .i32⟩ : BufTy).Contents (Elt F) → (⟨S1100000x64, .f32⟩ : BufTy).Contents (Elt F)),
    unary main_v29 main_v56 (broadcastInDim S1100000x1 ![0] bcast_S1100000_S1100000x1_0 : (⟨S1100000, .f32⟩ : BufTy).Contents (Elt F) → (⟨S1100000x1, .f32⟩ : BufTy).Contents (Elt F)),
    unary main_v56 main_v57 (broadcastInDim S1100000x64 ![0, 1] bcast_S1100000x1_S1100000x64_0_1 : (⟨S1100000x1, .f32⟩ : BufTy).Contents (Elt F) → (⟨S1100000x64, .f32⟩ : BufTy).Contents (Elt F)),
    binary main_v55 main_v57 main_v58 (mulf : (⟨S1100000x64, .f32⟩ : BufTy).Contents (Elt F) → (⟨S1100000x64, .f32⟩ : BufTy).Contents (Elt F) → (⟨S1100000x64, .f32⟩ : BufTy).Contents (Elt F)),
    nullary main_cst_11 (constant S_ .f32 0x00000000#32),
    unary main_cst_11 main_v59 (broadcastInDim S100000x64 ![] bcast_S_S100000x64 : (⟨S_, .f32⟩ : BufTy).Contents (Elt F) → (⟨S100000x64, .f32⟩ : BufTy).Contents (Elt F)),
    unary main_v6 main_v60 (broadcastInDim S1100000x1 ![0] bcast_S1100000_S1100000x1_0 : (⟨S1100000, .i32⟩ : BufTy).Contents (Elt F) → (⟨S1100000x1, .i32⟩ : BufTy).Contents (Elt F)),
    ternary main_v59 main_v60 main_v58 main_v61 ((fun x i u => Host.scatterAdd scatter_S100000x64_S1100000x1_S1100000x64_1_0_0_1 x i u) : (⟨S100000x64, .f32⟩ : BufTy).Contents (Elt F) → (⟨S1100000x1, .i32⟩ : BufTy).Contents (Elt F) → (⟨S1100000x64, .f32⟩ : BufTy).Contents (Elt F) → (⟨S100000x64, .f32⟩ : BufTy).Contents (Elt F)),
    unary main_arg5 main_v62 (broadcastInDim S1x64 ![1] bcast_S64_S1x64_1 : (⟨S64, .f32⟩ : BufTy).Contents (Elt F) → (⟨S1x64, .f32⟩ : BufTy).Contents (Elt F)),
    unary main_v62 main_v63 (broadcastInDim S100000x64 ![0, 1] bcast_S1x64_S100000x64_0_1 : (⟨S1x64, .f32⟩ : BufTy).Contents (Elt F) → (⟨S100000x64, .f32⟩ : BufTy).Contents (Elt F)),
    binary main_v61 main_v63 main_v64 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v64) (TRef.of (T := ⟨S100000x64, .f32⟩) main_call2_v0) (TRef.of (T := ⟨S100000x64, .f32⟩) main_v65) maximumf ]

/-- Operations 86 … 108 of the reference program. -/
abbrev l3 : List (HloOp τ sig (Elt F)) :=
  [ binary main_v65 main_arg6 main_v66 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_12 (constantI S_ 32 0#32),
    unary main_c_12 main_v67 (broadcastInDim S1100000 ![] bcast_S_S1100000 : (⟨S_, .i32⟩ : BufTy).Contents (Elt F) → (⟨S1100000, .i32⟩ : BufTy).Contents (Elt F)),
    binary main_v3 main_v67 main_v68 (cmpi .slt : (⟨S1100000, .i32⟩ : BufTy).Contents (Elt F) → (⟨S1100000, .i32⟩ : BufTy).Contents (Elt F) → (⟨S1100000, .i1⟩ : BufTy).Contents (Elt F)),
    nullary main_c_13 (constantI S_ 32 100000#32),
    unary main_c_13 main_v69 (broadcastInDim S1100000 ![] bcast_S_S1100000 : (⟨S_, .i32⟩ : BufTy).Contents (Elt F) → (⟨S1100000, .i32⟩ : BufTy).Contents (Elt F)),
    binary main_v3 main_v69 main_v70 (addi : (⟨S1100000, .i32⟩ : BufTy).Contents (Elt F) → (⟨S1100000, .i32⟩ : BufTy).Contents (Elt F) → (⟨S1100000, .i32⟩ : BufTy).Contents (Elt F)),
    ternary main_v68 main_v70 main_v3 main_v71 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v71 main_v72 (broadcastInDim S1100000x1 ![0] bcast_S1100000_S1100000x1_0 : (⟨S1100000, .i32⟩ : BufTy).Contents (Elt F) → (⟨S1100000x1, .i32⟩ : BufTy).Contents (Elt F)),
    binary main_v66 main_v72 main_v73 ((fun x i => Host.gather gather_S100000x64_S1100000x1_S1100000x64_1_0_n_n_0_1_164 x i) : (⟨S100000x64, .f32⟩ : BufTy).Contents (Elt F) → (⟨S1100000x1, .i32⟩ : BufTy).Contents (Elt F) → (⟨S1100000x64, .f32⟩ : BufTy).Contents (Elt F)),
    unary main_v29 main_v74 (broadcastInDim S1100000x1 ![0] bcast_S1100000_S1100000x1_0 : (⟨S1100000, .f32⟩ : BufTy).Contents (Elt F) → (⟨S1100000x1, .f32⟩ : BufTy).Contents (Elt F)),
    unary main_v74 main_v75 (broadcastInDim S1100000x64 ![0, 1] bcast_S1100000x1_S1100000x64_0_1 : (⟨S1100000x1, .f32⟩ : BufTy).Contents (Elt F) → (⟨S1100000x64, .f32⟩ : BufTy).Contents (Elt F)),
    binary main_v73 main_v75 main_v76 (mulf : (⟨S1100000x64, .f32⟩ : BufTy).Contents (Elt F) → (⟨S1100000x64, .f32⟩ : BufTy).Contents (Elt F) → (⟨S1100000x64, .f32⟩ : BufTy).Contents (Elt F)),
    nullary main_cst_14 (constant S_ .f32 0x00000000#32),
    unary main_cst_14 main_v77 (broadcastInDim S100000x64 ![] bcast_S_S100000x64 : (⟨S_, .f32⟩ : BufTy).Contents (Elt F) → (⟨S100000x64, .f32⟩ : BufTy).Contents (Elt F)),
    unary main_v6 main_v78 (broadcastInDim S1100000x1 ![0] bcast_S1100000_S1100000x1_0 : (⟨S1100000, .i32⟩ : BufTy).Contents (Elt F) → (⟨S1100000x1, .i32⟩ : BufTy).Contents (Elt F)),
    ternary main_v77 main_v78 main_v76 main_v79 ((fun x i u => Host.scatterAdd scatter_S100000x64_S1100000x1_S1100000x64_1_0_0_1 x i u) : (⟨S100000x64, .f32⟩ : BufTy).Contents (Elt F) → (⟨S1100000x1, .i32⟩ : BufTy).Contents (Elt F) → (⟨S1100000x64, .f32⟩ : BufTy).Contents (Elt F) → (⟨S100000x64, .f32⟩ : BufTy).Contents (Elt F)),
    unary main_arg7 main_v80 (broadcastInDim S1x64 ![1] bcast_S64_S1x64_1 : (⟨S64, .f32⟩ : BufTy).Contents (Elt F) → (⟨S1x64, .f32⟩ : BufTy).Contents (Elt F)),
    unary main_v80 main_v81 (broadcastInDim S100000x64 ![0, 1] bcast_S1x64_S100000x64_0_1 : (⟨S1x64, .f32⟩ : BufTy).Contents (Elt F) → (⟨S100000x64, .f32⟩ : BufTy).Contents (Elt F)),
    binary main_v79 main_v81 main_v82 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v82) (TRef.of (T := ⟨S100000x64, .f32⟩) main_call3_v0) (TRef.of (T := ⟨S100000x64, .f32⟩) main_v83) maximumf ]

/-- The first 40 operations: the edge columns, the inverse square root of the in-degree, the edge weights. -/
abbrev pre : List (HloOp τ sig (Elt F)) := s0 ++ (s1 ++ (s2 ++ (s3 ++ (s4 ++ s5))))

/-- The same for the first 40 operations, given as the six stretches in a row. -/
macro "keep_pre_tac" : tactic =>
  `(tactic| (refine StableHlo.after_of_forall_not_mem _ _ (List.forall_iff_forall_mem.mp ?_)
             simp only [pre, s0, s1, s2, s3, s4, s5, List.cons_append, List.nil_append, List.Forall, StableHlo.nullary_writes, StableHlo.unary_writes, StableHlo.binary_writes, StableHlo.ternary_writes, StableHlo.reshape_writes, Finset.mem_singleton]
             repeat' apply And.intro
             all_goals exact StableHlo.devRef_ne_of_ne (by decide)))

set_option maxRecDepth 8192 in
/-- The program's operations are the stretches in a row. -/
theorem ops_eq : (RefOps.ops : List (HloOp τ sig (Elt F))) = pre ++ (l1 ++ (l2 ++ l3)) := rfl

/-! ### What each stretch leaves, over any valuation -/

theorem s0_v0 (V : Valuation τ sig (Elt F)) : StableHlo.after s0 V (Proc.devRef .tc main_v0) = iotaInDim S100000 32 0 := by
  after_results_simp <;> rfl
theorem s0_v2 (V : Valuation τ sig (Elt F)) : StableHlo.after s0 V (Proc.devRef .tc main_v2)
    = shapeCast S1000000 (extractStridedSlice S1x1000000 ![0, 0] (V (Proc.devRef .tc main_arg1) : (⟨S2x1000000, .i32⟩ : BufTy).Contents (Elt F)) slices_S2x1000000_S1x1000000_0_0) shapeCasts_S1x1000000_S1000000 := by
  after_results_simp <;> rfl
theorem s1_v3 (V : Valuation τ sig (Elt F)) : StableHlo.after s1 V (Proc.devRef .tc main_v3)
    = concatenate S1100000 0 [⟨S1000000, (V (Proc.devRef .tc main_v2) : (⟨S1000000, .i32⟩ : BufTy).Contents (Elt F))⟩, ⟨S100000, (V (Proc.devRef .tc main_v0) : (⟨S100000, .i32⟩ : BufTy).Contents (Elt F))⟩] concatenates_S1000000_S100000_S1100000_d0 := by
  after_results_simp <;> rfl
theorem s2_v5 (V : Valuation τ sig (Elt F)) : StableHlo.after s2 V (Proc.devRef .tc main_v5)
    = shapeCast S1000000 (extractStridedSlice S1x1000000 ![1, 0] (V (Proc.devRef .tc main_arg1) : (⟨S2x1000000, .i32⟩ : BufTy).Contents (Elt F)) slices_S2x1000000_S1x1000000_1_0) shapeCasts_S1x1000000_S1000000 := by
  after_results_simp <;> rfl
theorem s3_v6 (V : Valuation τ sig (Elt F)) : StableHlo.after s3 V (Proc.devRef .tc main_v6)
    = concatenate S1100000 0 [⟨S1000000, (V (Proc.devRef .tc main_v5) : (⟨S1000000, .i32⟩ : BufTy).Contents (Elt F))⟩, ⟨S100000, (V (Proc.devRef .tc main_v0) : (⟨S100000, .i32⟩ : BufTy).Contents (Elt F))⟩] concatenates_S1000000_S100000_S1100000_d0 := by
  after_results_simp <;> rfl
/-- The in-degree's inverse square root, from the target column. -/
theorem s4_v14 (V : Valuation τ sig (Elt F)) : StableHlo.after s4 V (Proc.devRef .tc main_v14) = Cert.Gcn.degInv (V (Proc.devRef .tc main_v6)) := by
  after_results_simp
  try simp only [StableHlo.TRef.toBuf, StableHlo.TRef.ofBuf, cast_eq, id]
  rfl
/-- The edge weights, from the two columns and the inverse square roots. -/
theorem s5_v29 (V : Valuation τ sig (Elt F)) : StableHlo.after s5 V (Proc.devRef .tc main_v29)
    = mulf (Host.gather gather_S100000_S1100000x1_S1100000_n_0_n_n_0_1_1 (V (Proc.devRef .tc main_v14)) (Cert.Gcn.wrapCol (V (Proc.devRef .tc main_v3))))
        (Host.gather gather_S100000_S1100000x1_S1100000_n_0_n_n_0_1_1 (V (Proc.devRef .tc main_v14)) (Cert.Gcn.wrapCol (V (Proc.devRef .tc main_v6)))) := by
  after_results_simp
  rfl
/-- One layer's 23 operations leave the layer of the stretch's inputs at its output. -/
theorem l1_out (V : Valuation τ sig (Elt F)) : StableHlo.after l1 V (Proc.devRef .tc main_v47)
    = Cert.Gcn.layer (V (Proc.devRef .tc main_v3)) (V (Proc.devRef .tc main_v6)) (V (Proc.devRef .tc main_v29)) (V (Proc.devRef .tc main_arg0)) (V (Proc.devRef .tc main_arg2)) (V (Proc.devRef .tc main_arg3)) := by
  after_results_simp
  try simp only [StableHlo.TRef.toBuf, StableHlo.TRef.ofBuf, cast_eq, id]
  rfl
/-- One layer's 23 operations leave the layer of the stretch's inputs at its output. -/
theorem l2_out (V : Valuation τ sig (Elt F)) : StableHlo.after l2 V (Proc.devRef .tc main_v65)
    = Cert.Gcn.layer (V (Proc.devRef .tc main_v3)) (V (Proc.devRef .tc main_v6)) (V (Proc.devRef .tc main_v29)) (V (Proc.devRef .tc main_v47)) (V (Proc.devRef .tc main_arg4)) (V (Proc.devRef .tc main_arg5)) := by
  after_results_simp
  try simp only [StableHlo.TRef.toBuf, StableHlo.TRef.ofBuf, cast_eq, id]
  rfl
/-- One layer's 23 operations leave the layer of the stretch's inputs at its output. -/
theorem l3_out (V : Valuation τ sig (Elt F)) : StableHlo.after l3 V (Proc.devRef .tc main_v83)
    = Cert.Gcn.layer (V (Proc.devRef .tc main_v3)) (V (Proc.devRef .tc main_v6)) (V (Proc.devRef .tc main_v29)) (V (Proc.devRef .tc main_v65)) (V (Proc.devRef .tc main_arg6)) (V (Proc.devRef .tc main_arg7)) := by
  after_results_simp
  try simp only [StableHlo.TRef.toBuf, StableHlo.TRef.ofBuf, cast_eq, id]
  rfl

/-! ### What each stretch leaves alone -/

theorem s0_keep_arg1 (V : Valuation τ sig (Elt F)) : StableHlo.after s0 V (Proc.devRef .tc main_arg1) = V (Proc.devRef .tc main_arg1) := by keep_tac s0
theorem s1_keep_v0 (V : Valuation τ sig (Elt F)) : StableHlo.after s1 V (Proc.devRef .tc main_v0) = V (Proc.devRef .tc main_v0) := by keep_tac s1
theorem s1_keep_arg1 (V : Valuation τ sig (Elt F)) : StableHlo.after s1 V (Proc.devRef .tc main_arg1) = V (Proc.devRef .tc main_arg1) := by keep_tac s1
theorem s2_keep_v0 (V : Valuation τ sig (Elt F)) : StableHlo.after s2 V (Proc.devRef .tc main_v0) = V (Proc.devRef .tc main_v0) := by keep_tac s2
theorem s2_keep_v3 (V : Valuation τ sig (Elt F)) : StableHlo.after s2 V (Proc.devRef .tc main_v3) = V (Proc.devRef .tc main_v3) := by keep_tac s2
theorem s3_keep_v3 (V : Valuation τ sig (Elt F)) : StableHlo.after s3 V (Proc.devRef .tc main_v3) = V (Proc.devRef .tc main_v3) := by keep_tac s3
theorem s4_keep_v3 (V : Valuation τ sig (Elt F)) : StableHlo.after s4 V (Proc.devRef .tc main_v3) = V (Proc.devRef .tc main_v3) := by keep_tac s4
theorem s4_keep_v6 (V : Valuation τ sig (Elt F)) : StableHlo.after s4 V (Proc.devRef .tc main_v6) = V (Proc.devRef .tc main_v6) := by keep_tac s4
theorem s5_keep_v3 (V : Valuation τ sig (Elt F)) : StableHlo.after s5 V (Proc.devRef .tc main_v3) = V (Proc.devRef .tc main_v3) := by keep_tac s5
theorem s5_keep_v6 (V : Valuation τ sig (Elt F)) : StableHlo.after s5 V (Proc.devRef .tc main_v6) = V (Proc.devRef .tc main_v6) := by keep_tac s5
theorem l1_keep_v3 (V : Valuation τ sig (Elt F)) : StableHlo.after l1 V (Proc.devRef .tc main_v3) = V (Proc.devRef .tc main_v3) := by keep_tac l1
theorem l1_keep_v6 (V : Valuation τ sig (Elt F)) : StableHlo.after l1 V (Proc.devRef .tc main_v6) = V (Proc.devRef .tc main_v6) := by keep_tac l1
theorem l1_keep_v29 (V : Valuation τ sig (Elt F)) : StableHlo.after l1 V (Proc.devRef .tc main_v29) = V (Proc.devRef .tc main_v29) := by keep_tac l1
theorem l1_keep_arg4 (V : Valuation τ sig (Elt F)) : StableHlo.after l1 V (Proc.devRef .tc main_arg4) = V (Proc.devRef .tc main_arg4) := by keep_tac l1
theorem l1_keep_arg5 (V : Valuation τ sig (Elt F)) : StableHlo.after l1 V (Proc.devRef .tc main_arg5) = V (Proc.devRef .tc main_arg5) := by keep_tac l1
theorem l1_keep_arg6 (V : Valuation τ sig (Elt F)) : StableHlo.after l1 V (Proc.devRef .tc main_arg6) = V (Proc.devRef .tc main_arg6) := by keep_tac l1
theorem l1_keep_arg7 (V : Valuation τ sig (Elt F)) : StableHlo.after l1 V (Proc.devRef .tc main_arg7) = V (Proc.devRef .tc main_arg7) := by keep_tac l1
theorem l2_keep_v3 (V : Valuation τ sig (Elt F)) : StableHlo.after l2 V (Proc.devRef .tc main_v3) = V (Proc.devRef .tc main_v3) := by keep_tac l2
theorem l2_keep_v6 (V : Valuation τ sig (Elt F)) : StableHlo.after l2 V (Proc.devRef .tc main_v6) = V (Proc.devRef .tc main_v6) := by keep_tac l2
theorem l2_keep_v29 (V : Valuation τ sig (Elt F)) : StableHlo.after l2 V (Proc.devRef .tc main_v29) = V (Proc.devRef .tc main_v29) := by keep_tac l2
theorem l2_keep_arg6 (V : Valuation τ sig (Elt F)) : StableHlo.after l2 V (Proc.devRef .tc main_arg6) = V (Proc.devRef .tc main_arg6) := by keep_tac l2
theorem l2_keep_arg7 (V : Valuation τ sig (Elt F)) : StableHlo.after l2 V (Proc.devRef .tc main_arg7) = V (Proc.devRef .tc main_arg7) := by keep_tac l2
theorem pre_keep_arg0 (V : Valuation τ sig (Elt F)) : StableHlo.after pre V (Proc.devRef .tc main_arg0) = V (Proc.devRef .tc main_arg0) := by keep_pre_tac
theorem pre_keep_arg2 (V : Valuation τ sig (Elt F)) : StableHlo.after pre V (Proc.devRef .tc main_arg2) = V (Proc.devRef .tc main_arg2) := by keep_pre_tac
theorem pre_keep_arg3 (V : Valuation τ sig (Elt F)) : StableHlo.after pre V (Proc.devRef .tc main_arg3) = V (Proc.devRef .tc main_arg3) := by keep_pre_tac
theorem pre_keep_arg4 (V : Valuation τ sig (Elt F)) : StableHlo.after pre V (Proc.devRef .tc main_arg4) = V (Proc.devRef .tc main_arg4) := by keep_pre_tac
theorem pre_keep_arg5 (V : Valuation τ sig (Elt F)) : StableHlo.after pre V (Proc.devRef .tc main_arg5) = V (Proc.devRef .tc main_arg5) := by keep_pre_tac
theorem pre_keep_arg6 (V : Valuation τ sig (Elt F)) : StableHlo.after pre V (Proc.devRef .tc main_arg6) = V (Proc.devRef .tc main_arg6) := by keep_pre_tac
theorem pre_keep_arg7 (V : Valuation τ sig (Elt F)) : StableHlo.after pre V (Proc.devRef .tc main_arg7) = V (Proc.devRef .tc main_arg7) := by keep_pre_tac

/-! ### The first 40 operations -/

theorem pre1_v3 (U : Valuation τ sig (Elt F)) : StableHlo.after s3 (StableHlo.after s2 (StableHlo.after s1 (StableHlo.after s0 U))) (Proc.devRef .tc main_v3)
    = Cert.Gcn.edgeSrc (U (Proc.devRef .tc main_arg1)) := by
  rw [s3_keep_v3, s2_keep_v3, s1_v3, s0_v2, s0_v0]; rfl
theorem pre1_v6 (U : Valuation τ sig (Elt F)) : StableHlo.after s3 (StableHlo.after s2 (StableHlo.after s1 (StableHlo.after s0 U))) (Proc.devRef .tc main_v6)
    = Cert.Gcn.edgeDst (U (Proc.devRef .tc main_arg1)) := by
  rw [s3_v6, s2_v5, s2_keep_v0, s1_keep_arg1, s1_keep_v0, s0_keep_arg1, s0_v0]; rfl
theorem pre_v3 (U : Valuation τ sig (Elt F)) : StableHlo.after pre U (Proc.devRef .tc main_v3) = Cert.Gcn.edgeSrc (U (Proc.devRef .tc main_arg1)) := by
  simp only [pre, StableHlo.after_append]; rw [s5_keep_v3, s4_keep_v3, pre1_v3]
theorem pre_v6 (U : Valuation τ sig (Elt F)) : StableHlo.after pre U (Proc.devRef .tc main_v6) = Cert.Gcn.edgeDst (U (Proc.devRef .tc main_arg1)) := by
  simp only [pre, StableHlo.after_append]; rw [s5_keep_v6, s4_keep_v6, pre1_v6]
theorem pre_v29 (U : Valuation τ sig (Elt F)) : StableHlo.after pre U (Proc.devRef .tc main_v29)
    = Cert.Gcn.edgeNorm (Cert.Gcn.edgeSrc (U (Proc.devRef .tc main_arg1))) (Cert.Gcn.edgeDst (U (Proc.devRef .tc main_arg1))) := by
  simp only [pre, StableHlo.after_append]; rw [s5_v29, s4_v14, s4_keep_v3, s4_keep_v6, pre1_v3, pre1_v6]; rfl

/-! ### The whole program -/

/-- The reference program's result buffer holds the three-layer graph convolution of the argument buffers. -/
theorem ref_value (U : Valuation τ sig (Elt F)) :
    StableHlo.after RefOps.ops U (Proc.devRef .tc main_v83)
      = Cert.Gcn.gcn (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) := by
  rw [ops_eq, StableHlo.after_append, StableHlo.after_append, StableHlo.after_append]
  rw [l3_out, l2_keep_v3, l2_keep_v6, l2_keep_v29, l2_keep_arg6, l2_keep_arg7, l2_out]
  rw [l1_keep_v3, l1_keep_v6, l1_keep_v29, l1_keep_arg4, l1_keep_arg5, l1_keep_arg6, l1_keep_arg7, l1_out]
  rw [pre_v3, pre_v6, pre_v29, pre_keep_arg0, pre_keep_arg2, pre_keep_arg3, pre_keep_arg4, pre_keep_arg5, pre_keep_arg6, pre_keep_arg7]
  rfl

set_option maxRecDepth 8192 in
theorem ref_keep_arg0 (U : Valuation τ sig (Elt F)) : StableHlo.after RefOps.ops U (Proc.devRef .tc main_arg0) = U (Proc.devRef .tc main_arg0) := by keep_tac RefOps.ops
set_option maxRecDepth 8192 in
theorem ref_keep_arg1 (U : Valuation τ sig (Elt F)) : StableHlo.after RefOps.ops U (Proc.devRef .tc main_arg1) = U (Proc.devRef .tc main_arg1) := by keep_tac RefOps.ops
set_option maxRecDepth 8192 in
theorem ref_keep_arg2 (U : Valuation τ sig (Elt F)) : StableHlo.after RefOps.ops U (Proc.devRef .tc main_arg2) = U (Proc.devRef .tc main_arg2) := by keep_tac RefOps.ops
set_option maxRecDepth 8192 in
theorem ref_keep_arg3 (U : Valuation τ sig (Elt F)) : StableHlo.after RefOps.ops U (Proc.devRef .tc main_arg3) = U (Proc.devRef .tc main_arg3) := by keep_tac RefOps.ops
set_option maxRecDepth 8192 in
theorem ref_keep_arg4 (U : Valuation τ sig (Elt F)) : StableHlo.after RefOps.ops U (Proc.devRef .tc main_arg4) = U (Proc.devRef .tc main_arg4) := by keep_tac RefOps.ops
set_option maxRecDepth 8192 in
theorem ref_keep_arg5 (U : Valuation τ sig (Elt F)) : StableHlo.after RefOps.ops U (Proc.devRef .tc main_arg5) = U (Proc.devRef .tc main_arg5) := by keep_tac RefOps.ops
set_option maxRecDepth 8192 in
theorem ref_keep_arg6 (U : Valuation τ sig (Elt F)) : StableHlo.after RefOps.ops U (Proc.devRef .tc main_arg6) = U (Proc.devRef .tc main_arg6) := by keep_tac RefOps.ops
set_option maxRecDepth 8192 in
theorem ref_keep_arg7 (U : Valuation τ sig (Elt F)) : StableHlo.after RefOps.ops U (Proc.devRef .tc main_arg7) = U (Proc.devRef .tc main_arg7) := by keep_tac RefOps.ops

/-- On every device, for any float values, from any memory with zero counters: every weakly fair execution of the
    reference program terminates with its result at the three-layer graph convolution of the launch's arguments, the
    arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v83) = Cert.Gcn.gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v83).trans (ref_value _),
      (h c main_arg0).trans (ref_keep_arg0 _),
      (h c main_arg1).trans (ref_keep_arg1 _),
      (h c main_arg2).trans (ref_keep_arg2 _),
      (h c main_arg3).trans (ref_keep_arg3 _),
      (h c main_arg4).trans (ref_keep_arg4 _),
      (h c main_arg5).trans (ref_keep_arg5 _),
      (h c main_arg6).trans (ref_keep_arg6 _),
      (h c main_arg7).trans (ref_keep_arg7 _)⟩)
    (RefOps.run_raw m ρ)

end Cert.ReferenceIdeal.GcnRef

end
-- ==== Proof.lean ====
/-
  The certificate of the three-layer graph convolution: the kernel (six Pallas regions — three row-tiled matrix
  products and three bias-and-clamp passes — among the host's gathers and scatter-adds) against the plain jnp
  reference, equal as extended reals.

  At the extended reals the change of float format before each product is the identity and a row tile's product
  into a zero accumulator is, row by row, the whole array's product, so each product region leaves `h · W` in its
  output array; each bias-and-clamp region leaves `max (a + b) 0`; the host stretches between the regions are the
  reference's own operations. Both programs therefore end with `Cert.Gcn.gcn` of their arguments (Proof/Spec.lean):
  the kernel by its run over the twelve segments with the result buffer named (Proof/KernelRun.lean) and the walk
  through the boundaries' contents (Proof/KernelWalk.lean, over Proof/RegionMatmul.lean, Proof/RegionBias.lean and
  Proof/KernelHost.lean), the reference by its run read back stretch by stretch (Proof/RefOps.lean,
  Proof/RefValue.lean). No law beyond `0 + s = s` joins the two sides, and the precondition is not used.
  The ideal pass rewrote nothing, so the kernel's idealization is its own text read at the extended reals.
-/
import proofs.«132859_j61203283968721_1_alg».proof.Defs
import proofs.«132859_j61203283968721_1_alg».proof.Proof.Gen.Kernel
import proofs.«132859_j61203283968721_1_alg».proof.Proof.Gen.Kernel.Skeleton
import proofs.«132859_j61203283968721_1_alg».proof.Proof.Gen.Kernel.Launch
import proofs.«132859_j61203283968721_1_alg».proof.Proof.Gen.Kernel.Points
import proofs.«132859_j61203283968721_1_alg».proof.Proof.Gen.Kernel.Frame
import proofs.«132859_j61203283968721_1_alg».proof.Proof.Gen.KernelIdeal
import proofs.«132859_j61203283968721_1_alg».proof.Proof.Gen.KernelIdeal.Skeleton
import proofs.«132859_j61203283968721_1_alg».proof.Proof.Gen.KernelIdeal.Launch
import proofs.«132859_j61203283968721_1_alg».proof.Proof.Gen.KernelIdeal.Points
import proofs.«132859_j61203283968721_1_alg».proof.Proof.Gen.KernelIdeal.Frame
import proofs.«132859_j61203283968721_1_alg».proof.Proof.Gen.ReferenceIdeal
import proofs.«132859_j61203283968721_1_alg».proof.Proof.Gen.Pre_finite_inputs
import proofs.«132859_j61203283968721_1_alg».proof.Proof.Spec
import proofs.«132859_j61203283968721_1_alg».proof.Proof.KernelRun
import proofs.«132859_j61203283968721_1_alg».proof.Proof.KernelWalk
import proofs.«132859_j61203283968721_1_alg».proof.Proof.RefValue
import Idealize.ShloMosaic.Adequacy
import Idealize.ShloMosaic.Init

noncomputable section

namespace Cert.Proof

open Idealize.ShloMosaic Idealize.SL.Sem Cert.Kernel

/-- The word-level kernel runs, and its arguments end as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs, its arguments unchanged: its run with the result dropped. -/
theorem frame_referenceIdeal : Cert.frame_ReferenceIdeal := fun m ρ _ =>
  (θ_run Cert.ReferenceIdeal.defs _ _).mono (fun _ h c => (h c).2) (Cert.ReferenceIdeal.GcnRef.ref_run (F := Ideal) m ρ)

/-- The ideal pass rewrote no operation. -/
theorem preserves : Cert.preserves_Kernel_KernelIdeal := trivial

/-- Both idealized programs end with the three-layer network of their arguments, which agree. -/
theorem algebraic : Cert.algebraic_KernelIdeal_ReferenceIdeal := by
  intro m ρ m' ρ' _ hagree
  refine ⟨fun c => Cert.Gcn.gcn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.GcnWalk.result12 m ρ c), (h c).2⟩)
      (Cert.KernelIdeal.GcnRun.run_named (F := Ideal) m ρ)
  · refine (θ_run Cert.ReferenceIdeal.defs _ _).mono (fun _ h c => ⟨(h c).1.trans ?_, (h c).2⟩)
      (Cert.ReferenceIdeal.GcnRef.ref_run (F := Ideal) m' ρ')
    obtain ⟨e0, e1, e2, e3, e4, e5, e6, e7⟩ := hagree c
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
